-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x32 .f32) (main_arg4 : FVec F S32x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S32x64 : Shape := ⟨2, ![32, 64]⟩
abbrev S10000x64 : Shape := ⟨2, ![10000, 64]⟩
abbrev S400x10000 : Shape := ⟨2, ![400, 10000]⟩
abbrev S400x64 : Shape := ⟨2, ![400, 64]⟩
abbrev S10000x32 : Shape := ⟨2, ![10000, 32]⟩
abbrev S400x32 : Shape := ⟨2, ![400, 32]⟩
abbrev S1000x10000 : Shape := ⟨2, ![1000, 10000]⟩
abbrev S1000x64 : Shape := ⟨2, ![1000, 64]⟩

abbrev nBuf : Space → Nat
  | .hbm => 13
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x32, .f32⟩
  | .hbm, ⟨5, _⟩ => ⟨S32x64, .f32⟩
  | .hbm, ⟨6, _⟩ => ⟨S10000x64, .f32⟩
  | .hbm, ⟨7, _⟩ => ⟨S10000x10000, .bf16⟩
  | .hbm, ⟨8, _⟩ => ⟨S10000x64, .bf16⟩
  | .hbm, ⟨9, _⟩ => ⟨S10000x64, .f32⟩
  | .hbm, ⟨10, _⟩ => ⟨S10000x32, .f32⟩
  | .hbm, ⟨11, _⟩ => ⟨S10000x32, .f32⟩
  | .hbm, ⟨12, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S32x64, .f32⟩
  | .local _ .vmem, ⟨3, _⟩ => ⟨S400x10000, .f32⟩
  | .local _ .vmem, ⟨4, _⟩ => ⟨S400x10000, .f32⟩
  | .local _ .vmem, ⟨5, _⟩ => ⟨S400x64, .f32⟩
  | .local _ .vmem, ⟨6, _⟩ => ⟨S400x64, .f32⟩
  | .local _ .vmem, ⟨7, _⟩ => ⟨S400x10000, .bf16⟩
  | .local _ .vmem, ⟨8, _⟩ => ⟨S400x10000, .bf16⟩
  | .local _ .vmem, ⟨9, _⟩ => ⟨S10000x32, .f32⟩
  | .local _ .vmem, ⟨10, _⟩ => ⟨S1000x10000, .bf16⟩
  | .local _ .vmem, ⟨11, _⟩ => ⟨S1000x10000, .bf16⟩
  | .local _ .vmem, ⟨12, _⟩ => ⟨S10000x64, .bf16⟩
  | .local _ .vmem, ⟨13, _⟩ => ⟨S1000x64, .f32⟩
  | .local _ .vmem, ⟨14, _⟩ => ⟨S1000x64, .f32⟩
  | .local _ .vmem, ⟨15, _⟩ => ⟨S400x32, .f32⟩
  | .local _ .vmem, ⟨16, _⟩ => ⟨S400x32, .f32⟩
  | .local _ .vmem, ⟨17, _⟩ => ⟨S10000x32, .f32⟩
  | .local _ .vmem, ⟨18, _⟩ => ⟨S400x10000, .f32⟩
  | .local _ .vmem, ⟨19, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S32x32_S32x32_S32x64_d1 : Shape.Concatenates [S32x32, S32x32] S32x64 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S400x64_S400x64_0_0 : ∀ a, (![0, 0] : Fin 2 → Nat) a + S400x64.size a ≤ S400x64.size a
  h_S400x64 : 0 < S400x64.numel
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1000x64_S1000x64_0_0 : ∀ a, (![0, 0] : Fin 2 → Nat) a + S1000x64.size a ≤ S1000x64.size a
  h_S1000x64 : 0 < S1000x64.numel
  slices_S10000x64_S10000x32_0_0 : S10000x64.Slices ![0, 0] S10000x32
  slices_S10000x64_S10000x32_0_32 : S10000x64.Slices ![0, 32] S10000x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x64_S400x64_1_0_0_1_n_n_wf : DotDims.WF S400x32 S32x64 S400x64 [1] [0] [0] [1] [] []
  dot_S1000x10000_S10000x64_S1000x64_1_0_0_1_n_n_wf : DotDims.WF S1000x10000 S10000x64 S1000x64 [1] [0] [0] [1] [] []
  dot_S400x32_S10000x32_S400x10000_1_1_0_0_n_n_wf : DotDims.WF S400x32 S10000x32 S400x10000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S10000x64.size a
  hwx1_2 : ∀ i : grid1.Coords, EltTy.bits .f32 = 32 ∨ (Rect.block (s := S10000x64) S1000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x32.size a ≤ S10000x32.size a
  hwx2_0 : ∀ i : grid2.Coords, EltTy.bits .f32 = 32 ∨ (Rect.block (s := S10000x32) S400x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10000.size a ≤ S10000x10000.size a
  hwx2_2 : ∀ i : grid2.Coords, EltTy.bits .f32 = 32 ∨ (Rect.block (s := S10000x10000) S400x10000.size (cc2_transform_2 i) (hinb2_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x64_S400x64_1_0_0_1_n_n : DotDims S400x32 S32x64 S400x64 where
  lhsContracting := [1]
  rhsContracting := [0]
  lhsNonContracting := [0]
  rhsNonContracting := [1]
  lhsBatch := []
  rhsBatch := []
  wf := dot_S400x32_S32x64_S400x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S400x32_S10000x32_S400x10000_1_1_0_0_n_n : DotDims S400x32 S10000x32 S400x10000 where
  lhsContracting := [1]
  rhsContracting := [1]
  lhsNonContracting := [0]
  rhsNonContracting := [0]
  lhsBatch := []
  rhsBatch := []
  wf := dot_S400x32_S10000x32_S400x10000_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S400x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S400x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S400x10000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S10000x32 : Shape := ⟨2, ![10000, 32]⟩
abbrev S_ : Shape := ⟨0, ![]⟩
abbrev S32x10000 : Shape := ⟨2, ![32, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x32, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x32, .f32⟩
  | .hbm, ⟨11, _⟩ => ⟨S10000x32, .f32⟩
  | .hbm, ⟨12, _⟩ => ⟨S10000x32, .f32⟩
  | .hbm, ⟨13, _⟩ => ⟨S10000x32, .f32⟩
  | .hbm, ⟨14, _⟩ => ⟨S32x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x32_S32x10000_1_0 : S10000x32.Transposes [1, 0] S32x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.FeatData.lean ====
/-
  The first region, its data. Each of the 25 grid points takes a 400-row panel of the adjacency; the three small
  operands (the features, the first weight and the two second weights side by side) are whole arrays, staged
  once. A [10000, 32] scratch carries the feature projection x · W1 from the first point, where it is computed
  and stored, to every later point, where it is only loaded. At every point the body stores
  max (panel · scratch) 0 · [W2 | W3] into the [400, 64] output window and the panel itself, narrowed, into the
  [400, 10000] output window. Stated for any float instance and at a parameter `V`, the buffers' contents when
  the region is entered: the blocks, the three stored values, and the proof data, whose invariant says what the
  scratch holds before each point: anything before the first, the projection before every other.
-/
import proofs.«181382_g32409823216073_cont_9to1_1175_25_alg».proof.Proof.Gen.KernelIdeal.Launch
import proofs.«181382_g32409823216073_cont_9to1_1175_25_alg».proof.Proof.Gen.KernelIdeal.Skeleton
import proofs.«181382_g32409823216073_cont_9to1_1175_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FeatRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- "This is the first grid point", as the body tests it. -/
abbrev isFirst (i : grid0.Coords) : Prop := (Scalar.cmpi .ne (Scalar.extui (Scalar.cmpi .eq (BitVec.ofNat 32 (i 0).val) 0#32)) 0#32) = 1#1

/-- It holds at point 0 and nowhere else (decided over the 25 points). -/
theorem isFirst_iff : ∀ t : Fin cfg0.N, isFirst (grid0.coords t) ↔ t.val = 0 :=
  (by decide +kernel : ∀ t : Fin grid0.N, isFirst (grid0.coords t) ↔ t.val = 0)

/-- Window `w`'s block at point `t`, cut out of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body loads and stores through: each the whole of its buffer. -/
abbrev inX : Rect S10000x128 := Rect.unit (s := S10000x128) ![0, 0] S10000x128.size inb_S10000x128_S10000x128_0_0
abbrev inW : Rect S128x32 := Rect.unit (s := S128x32) ![0, 0] S128x32.size inb_S128x32_S128x32_0_0
abbrev inC : Rect S32x64 := Rect.unit (s := S32x64) ![0, 0] S32x64.size inb_S32x64_S32x64_0_0
abbrev inP : Rect S400x10000 := Rect.unit (s := S400x10000) ![0, 0] S400x10000.size inb_S400x10000_S400x10000_0_0
abbrev wholeS : Rect S10000x32 := Rect.unit (s := S10000x32) ![0, 0] S10000x32.size inb_S10000x32_S10000x32_0_0
abbrev whole4 : Rect S400x64 := Rect.unit (s := S400x64) ![0, 0] S400x64.size inb_S400x64_S400x64_0_0

/-- The feature projection, as the first point stores it into the scratch. -/
def feat (x0 : Vec F S10000x128 .f32) (x1 : Vec F S128x32 .f32) : Vec F S10000x32 .f32 :=
  View.canon [⟨wholeS, k0_pay1 (View.ld x0 inX) (View.ld x1 inW)⟩]

/-- What a point stores into the [400, 64] output window, from its panel, the scratch and the second weights. -/
def out4 (x3 : Vec F S400x10000 .f32) (h : Vec F S10000x32 .f32) (x2 : Vec F S32x64 .f32) : Vec F S400x64 .f32 :=
  View.canon [⟨whole4, k0_pay3 (View.ld x3 inP) (View.ld h wholeS) (View.ld x2 inC)⟩]

/-- What a point stores into the [400, 10000] output window: its panel, narrowed. -/
def out5 (x3 : Vec F S400x10000 .f32) : Vec F S400x10000 .bf16 :=
  View.canon [⟨inP, k0_pay2 (View.ld x3 inP)⟩]

/-- The first grid point. -/
def first : Fin cfg0.N := ⟨0, by show 0 < grid0.N; rw [N_0]; decide⟩

/-- What the scratch carries from the first point on: the projection of the whole features by the whole first weight. -/
def carried (c : Dev nD) : Vec F S10000x32 .f32 := feat (blk V c 0 first) (blk V c 1 first)

/-- The scratch, as the body is handed it. -/
abbrev scratch : Memref sig .tc .vmem S10000x32 .f32 := Memref.whole cc0_scratch0

/-- The core's other scoped buffers that this region does not stage: each at some contents. -/
def rest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The region invariant with the scratch taken out as an owned memref. -/
theorem PhiA_eq (c : Dev nD) :
    (Pipeline.ΦA spec0 c : sProp 𝕄) = iprop(((∃ d, owns (c : Thread nD τ) scratch fullShare d) ∗ rest c) ∗ (∃ r, prngReg c r)) := by
  unfold Pipeline.ΦA rest; rw [scopedRest0_eq]; simp only [scratch, owns_whole]; try rfl

/-- The proof data: the arrays as the region finds them; after the body every input's buffer still at its block,
    the two outputs' at what the point stores, computed from the carried projection; before the first point the
    scratch holds anything, before every other point the projection. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => out4 (blk V c 3 t) (carried V c) (blk V c 2 t)
    | ⟨5, _⟩ => out5 (blk V c 3 t)
  Φ t := if t.val = 0 then Pipeline.ΦA spec0 c
    else iprop((owns (c : Thread nD τ) scratch fullShare (carried V c) ∗ rest c) ∗ (∃ r, prngReg c r))
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = out4 (blk V c 3 t) (carried V c) (blk V c 2 t) := by dsimp only [dat]
theorem after_5 (c : Dev nD) (t : Fin cfg0.N) : (dat V c).after 5 t = out5 (blk V c 3 t) := by dsimp only [dat]

/-- Before the first point the invariant is the region's plain one. -/
theorem Φ_zero (c : Dev nD) : (dat V c).Φ 0 = Pipeline.ΦA spec0 c := by
  dsimp only [dat]; exact if_pos rfl

/-- Before a later point it names the scratch's contents. -/
theorem Φ_pos (c : Dev nD) (t : Fin (cfg0.N + 1)) (ht : t.val ≠ 0) :
    (dat V c).Φ t = iprop((owns (c : Thread nD τ) scratch fullShare (carried V c) ∗ rest c) ∗ (∃ r, prngReg c r)) := by
  dsimp only [dat]; exact if_neg ht

/-- After the last point it gives the plain invariant back: the scratch at the projection is the scratch at something. -/
theorem Φ_last (c : Dev nD) : (dat V c).Φ (Fin.last cfg0.N) ⊢ (Pipeline.ΦA spec0 c : sProp 𝕄) := by
  rw [Φ_pos V c (Fin.last cfg0.N) (by rw [Fin.val_last]; show grid0.N ≠ 0; rw [N_0]; decide), PhiA_eq]
  iintro ⟨⟨Hs, Hr⟩, Hp⟩
  isplitr [Hp]
  · isplitl [Hs]
    · iexists _; iexact Hs
    iexact Hr
  iexact Hp

end Cert.KernelIdeal.FeatRegion

end
-- ==== Proof.EncRegion.lean ====
/-
  The second region: each grid point multiplies a 1000-row panel of the (copied) adjacency by the whole
  [10000, 64] projection and stores the [1000, 64] product. Stated for any float instance and at a parameter
  `V`, the buffers' contents when the region is entered: what a window's block is at a point, what the body
  leaves in the output's staging buffer, the body's triple, the proof data and the body obligation.
-/
import proofs.«181382_g32409823216073_cont_9to1_1175_25_alg».proof.Proof.Gen.KernelIdeal.Launch
import proofs.«181382_g32409823216073_cont_9to1_1175_25_alg».proof.Proof.Gen.KernelIdeal.Skeleton
import proofs.«181382_g32409823216073_cont_9to1_1175_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EncRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row panel is in its staging buffer at every point (it is fetched at every point). -/
theorem panel_before {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The resident operand is in its staging buffer at every point (fetched once; its block never moves and the
    body leaves it in place). -/
theorem resident_before {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each the whole of its buffer. -/
abbrev inA : Rect S1000x10000 := Rect.unit (s := S1000x10000) ![0, 0] S1000x10000.size inb_S1000x10000_S1000x10000_0_0
abbrev inB : Rect S10000x64 := Rect.unit (s := S10000x64) ![0, 0] S10000x64.size inb_S10000x64_S10000x64_0_0
abbrev whole : Rect S1000x64 := Rect.unit (s := S1000x64) ![0, 0] S1000x64.size inb_S1000x64_S1000x64_0_0

/-- What the body leaves in the output's staging buffer: its one store, of the product of what it loaded. -/
def out (x0 : Vec F S1000x10000 .bf16) (x1 : Vec F S10000x64 .bf16) : Vec F S1000x64 .f32 :=
  View.canon [⟨whole, k1_pay1 (View.ld x0 inA) (View.ld x1 inB)⟩]

theorem out_cover (p0 : Vec F S1000x64 .f32) (y : S1000x64.Idx) :
    ∃ pc ∈ ([⟨whole, p0⟩] : List (View.Piece (Elt F) S1000x64 .f32)), y ∈ pc.1.set :=
  View.cover_of_tiled [⟨whole, p0⟩] S1000x64.size (by rfl) y

set_option maxHeartbeats 1000000 in
/-- The body on whole staging memrefs: the inputs keep their contents, the output ends at `out` of them. -/
theorem body_triple (c : Dev nD) (E : Set ℕ) (i : grid1.Coords)
    (arg1 : Memref sig .tc .vmem S1000x10000 .bf16) (harg1 : arg1.IsWhole) (arg2 : Memref sig .tc .vmem S10000x64 .bf16) (harg2 : arg2.IsWhole)
    (arg3 : Memref sig .tc .vmem S1000x64 .f32) (harg3 : arg3.IsWhole)
    (x0 : Vec F S1000x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__pass2_body i arg1 harg1 arg2 harg2 arg3 harg3) K := by
  simp only [cc1__pass2_body_eq_skeleton]; unfold cc1__pass2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover (F := F) _)

/-- The proof data: the arrays as the region finds them; after the body each input's buffer still at its block,
    the output's at the product of the two blocks; the invariant is the buffers the region does not touch. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => out (blk V c 0 t) (blk V c 1 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = out (blk V c 0 t) (blk V c 1 t) := by dsimp only [dat]

theorem before_0 (c : Dev nD) (t : Fin cfg1.N) (d) : (dat V c).before 0 t d = blk V c 0 t :=
  panel_before V (dat V c) (A_eq V c 0) (after_0 V c) t d
theorem before_1 (c : Dev nD) (t : Fin cfg1.N) (d) : (dat V c).before 1 t d = blk V c 1 t :=
  resident_before V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the triple applies; the invariant and what
    the core owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_triple (F := F) c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat (F := F) V c) (defs₀ (F := F)) Variants.none () Set.univ := fun t => by
  rw [bigSep_W1, bigSep_W1]
  exact sound_body V c t

end Cert.KernelIdeal.EncRegion

end
-- ==== Proof.GramRegion.lean ====
/-
  The third region: each grid point multiplies a 400-row panel of the encoding by the transpose of the whole
  [10000, 32] encoding and stores the [400, 10000] product. The panel and the whole encoding are two windows
  on ONE array, which both only read: each holds half of that array's share. Stated for any float instance
  and at a parameter `V`, the buffers' contents when the region is entered.
-/
import proofs.«181382_g32409823216073_cont_9to1_1175_25_alg».proof.Proof.Gen.KernelIdeal.Launch
import proofs.«181382_g32409823216073_cont_9to1_1175_25_alg».proof.Proof.Gen.KernelIdeal.Skeleton
import proofs.«181382_g32409823216073_cont_9to1_1175_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GramRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row panel is in its staging buffer at every point (it is fetched at every point). -/
theorem panel_before {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The resident operand is in its staging buffer at every point (fetched once; its block never moves and the
    body leaves it in place). -/
theorem resident_before {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each the whole of its buffer. -/
abbrev inA : Rect S400x32 := Rect.unit (s := S400x32) ![0, 0] S400x32.size inb_S400x32_S400x32_0_0
abbrev inB : Rect S10000x32 := Rect.unit (s := S10000x32) ![0, 0] S10000x32.size inb_S10000x32_S10000x32_0_0
abbrev whole : Rect S400x10000 := Rect.unit (s := S400x10000) ![0, 0] S400x10000.size inb_S400x10000_S400x10000_0_0

/-- What the body leaves in the output's staging buffer: its one store, of the product of what it loaded. -/
def out (x0 : Vec F S400x32 .f32) (x1 : Vec F S10000x32 .f32) : Vec F S400x10000 .f32 :=
  View.canon [⟨whole, k2_pay1 (View.ld x0 inA) (View.ld x1 inB)⟩]

theorem out_cover (p0 : Vec F S400x10000 .f32) (y : S400x10000.Idx) :
    ∃ pc ∈ ([⟨whole, p0⟩] : List (View.Piece (Elt F) S400x10000 .f32)), y ∈ pc.1.set :=
  View.cover_of_tiled [⟨whole, p0⟩] S400x10000.size (by rfl) y

set_option maxHeartbeats 1000000 in
/-- The body on whole staging memrefs: the inputs keep their contents, the output ends at `out` of them. -/
theorem body_triple (c : Dev nD) (E : Set ℕ) (i : grid2.Coords)
    (arg1 : Memref sig .tc .vmem S400x32 .f32) (harg1 : arg1.IsWhole) (arg2 : Memref sig .tc .vmem S10000x32 .f32) (harg2 : arg2.IsWhole)
    (arg3 : Memref sig .tc .vmem S400x10000 .f32) (harg3 : arg3.IsWhole)
    (x0 : Vec F S400x32 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc2__gram_body i arg1 harg1 arg2 harg2 arg3 harg3) K := by
  simp only [cc2__gram_body_eq_skeleton]; unfold cc2__gram_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover (F := F) _)

/-- The proof data: the arrays as the region finds them; after the body each input's buffer still at its block,
    the output's at the product of the two blocks; the invariant is the buffers the region does not touch. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => out (blk V c 0 t) (blk V c 1 t)
  Φ _ := Pipeline.ΦA spec2 c
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = out (blk V c 0 t) (blk V c 1 t) := by dsimp only [dat]

theorem before_0 (c : Dev nD) (t : Fin cfg2.N) (d) : (dat V c).before 0 t d = blk V c 0 t :=
  panel_before V (dat V c) (A_eq V c 0) (after_0 V c) t d
theorem before_1 (c : Dev nD) (t : Fin cfg2.N) (d) : (dat V c).before 1 t d = blk V c 1 t :=
  resident_before V (dat V c) (A_eq V c 1) (after_1 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so the triple applies; the invariant and what
    the core owes pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_triple (F := F) c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat (F := F) V c) (defs₀ (F := F)) Variants.none () Set.univ := fun t => by
  rw [bigSep_W2, bigSep_W2]
  exact sound_body V c t

end Cert.KernelIdeal.GramRegion

end
-- ==== Proof.Run.lean ====
/-
  The kernel's whole run. @main is a host concatenation, the first region, a host narrowing, the second region,
  two host slices, the third region. Between two items every unscoped buffer of the core is held at a named
  valuation: the launch memory, then each host stretch applied, then each region's arrays at what its
  write-backs leave. Each region is a segment entered from the valuation before it and left at the one after;
  the run ends with every unscoped buffer at the last valuation, from which both the argument arrays (unchanged)
  and the three results can be read. The first region's body obligation is taken as a hypothesis here.
-/
import proofs.«181382_g32409823216073_cont_9to1_1175_25_alg».proof.Proof.FeatData
import proofs.«181382_g32409823216073_cont_9to1_1175_25_alg».proof.Proof.EncRegion
import proofs.«181382_g32409823216073_cont_9to1_1175_25_alg».proof.Proof.GramRegion
import proofs.«181382_g32409823216073_cont_9to1_1175_25_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the concatenation of the two second weights. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, everything else as it was. -/
def W2 (c : Dev nD) : Valuation τ sig (Elt F) :=
  Pipeline.withArrays spec0 c (W1 m c) fun w => (FeatRegion.dat (V1 m) c).arrAt w cfg0.N
theorem W2_arr (c : Dev nD) (w : Fin cfg0.W) :
    W2 m c (Proc.devRef .tc (Pipeline.arrRef spec0 w)) = (FeatRegion.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (FeatRegion.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the narrowing of the first region's [10000, 64] result. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (EncRegion.dat (V3 m) c).arrAt w cfg1.N
theorem W4_arr (c : Dev nD) (w : Fin cfg1.W) :
    W4 m c (Proc.devRef .tc (Pipeline.arrRef spec1 w)) = (EncRegion.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (EncRegion.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the two column slices. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third region: the Gram matrix's buffer at what the write-backs leave; the encoding it reads twice
    is untouched. -/
def W6 (c : Dev nD) : Valuation τ sig (Elt F) :=
  Function.update (W5 m c) (Proc.devRef .tc main_v6) ((GramRegion.dat (V5 m) c).arrAt 2 cfg2.N)
theorem W6_out (c : Dev nD) : W6 m c (Proc.devRef .tc main_v6) = (GramRegion.dat (V5 m) c).arrAt 2 cfg2.N := by
  unfold W6; exact Function.update_self ..
theorem W6_of_ne (c : Dev nD) (b : Ref sig .tc) (hb : b ≠ main_v6) : W6 m c (Proc.devRef .tc b) = W5 m c (Proc.devRef .tc b) := by
  unfold W6; exact Function.update_of_ne (StableHlo.devRef_ne_of_ne hb) ..
abbrev V6 : (c : Dev nD) → (b : Ref sig .tc) → Buf (Elt F) ((c : Thread nD τ).loc b) := fun c b => W6 m c b

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((FeatRegion.dat (V1 m) c).arrAt_in 0 rfl _).trans (FeatRegion.A_eq (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 3).trans (((FeatRegion.dat (V1 m) c).arrAt_in 3 rfl _).trans (FeatRegion.A_eq (V1 m) c 3))
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 1).trans (((FeatRegion.dat (V1 m) c).arrAt_in 1 rfl _).trans (FeatRegion.A_eq (V1 m) c 1))
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => FeatRegion.dat (V1 m) c
  | ⟨1, _⟩ => fun c => EncRegion.dat (V3 m) c
  | ⟨2, _⟩ => fun c => GramRegion.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (hfeat : ∀ (V : (c : Dev nD) → (b : Ref sig .tc) → Buf (Elt F) ((c : Thread nD τ).loc b)) (c : Dev nD),
  BodyObligation (FeatRegion.dat (F := F) V c) (defs₀ (F := F)) Variants.none () Set.univ)

/-! ## The regions as segments -/

set_option backward.isDefEq.respectTransparency.types false in
/-- Region 0: entered from every unscoped buffer at `W1`, left at `W2`. Its arrays are split out of the
    unscoped buffers at entry and put back at their final contents at exit; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hfeat (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from FeatRegion.Φ_zero (V1 m) c]; unfold Pipeline.ΦA
    iintro ⟨Hp, -, Hr⟩
    isplitl [Hr]; · iexact Hr
    iexact Hp
  hout c := by
    refine (show (pdats m 0 c).Φ (Fin.last _) ⊢ (Pipeline.ΦA spec0 c : sProp 𝕄) from FeatRegion.Φ_last (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the
    unscoped buffers at entry and put back at their final contents at exit; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (EncRegion.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.RunAll.lean ====
/-
  The third region as a segment, and the whole run. The third region reads the encoding through two windows
  (a row panel and the whole array) and writes the Gram matrix. At entry the encoding's buffer, held whole at the
  full share, is dealt to the two windows as its two halves; at exit the two halves, both still at the entry
  contents, are joined again. The run then chains the six items of @main and ends with every unscoped buffer of
  the core at the last valuation.
-/
import proofs.«181382_g32409823216073_cont_9to1_1175_25_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the third region's three windows: the encoding (read twice) and the Gram matrix. -/
theorem gram_arrs : Finset.univ.image (Pipeline.arrRef spec2) = ([main_v4, main_v6] : List (Ref sig .tc)).toFinset := by decide

/-- The third region's arrays, window by window: the panel's window holds the encoding's buffer at the left half
    of its share, the whole array's window at the right half, the output window the Gram matrix's buffer outright. -/
theorem gram_arrays (c : Dev nD) (G : (w : Fin cfg2.W) → Buf (Elt F) ((cfg2.win w).arr.view.loc (c : Thread nD τ))) :
    ((pdats m 2 c).arrays G : sProp 𝕄)
      = iprop((((c : Thread nD τ).loc main_v4) ↦{fullShare.left} G 0) ∗ (((c : Thread nD τ).loc main_v4) ↦{fullShare.right} G 1)
          ∗ (((c : Thread nD τ).loc main_v6) ↦{fullShare} G 2)) := by
  unfold Dat.arrays
  rw [bigSep_W2]
  have h0 : ((Pipeline.pin (pcfgs (F := F)) adm 2).win (0 : Fin 3)).arr.view.set = Finset.univ := (arr_whole2 0).set_eq_univ
  have h1 : ((Pipeline.pin (pcfgs (F := F)) adm 2).win (1 : Fin 3)).arr.view.set = Finset.univ := (arr_whole2 1).set_eq_univ
  have h2 : ((Pipeline.pin (pcfgs (F := F)) adm 2).win (2 : Fin 3)).arr.view.set = Finset.univ := (arr_whole2 2).set_eq_univ
  rw [show ((pdats m 2 c).share 0) = fullShare.left from rfl, show ((pdats m 2 c).share 1) = fullShare.right from rfl,
    show ((pdats m 2 c).share 2) = fullShare from rfl]
  refine congrArg₂ _ (by first | (rw [h0]; rfl) | (erw [h0]; rfl) | (simp only [h0]; rfl)) (congrArg₂ _ (by first | (rw [h1]; rfl) | (erw [h1]; rfl) | (simp only [h1]; rfl)) (by first | (rw [h2]; rfl) | (erw [h2]; rfl) | (simp only [h2]; rfl)))

/-- The encoding is what both of its windows hold at entry and at exit: both only read it. -/
theorem gram_first0 (c : Dev nD) : (pdats m 2 c).arrAt 0 0 = V5 m c main_v4 := GramRegion.A_eq (V5 m) c 0
theorem gram_first1 (c : Dev nD) : (pdats m 2 c).arrAt 1 0 = V5 m c main_v4 := GramRegion.A_eq (V5 m) c 1
theorem gram_first2 (c : Dev nD) : (pdats m 2 c).arrAt 2 0 = V5 m c main_v6 := GramRegion.A_eq (V5 m) c 2
theorem gram_kept0 (c : Dev nD) : (pdats m 2 c).arrAt 0 cfg2.N = V5 m c main_v4 :=
  ((GramRegion.dat (V5 m) c).arrAt_in 0 rfl _).trans (GramRegion.A_eq (V5 m) c 0)
theorem gram_kept1 (c : Dev nD) : (pdats m 2 c).arrAt 1 cfg2.N = V5 m c main_v4 :=
  ((GramRegion.dat (V5 m) c).arrAt_in 1 rfl _).trans (GramRegion.A_eq (V5 m) c 1)

/-- The two distinct buffers behind the windows, each whole at the full share at contents `V`. -/
theorem gram_bufs (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v4) ↦{fullShare} V main_v4) ∗ (((c : Thread nD τ).loc main_v6) ↦{fullShare} V main_v6)) := by
  unfold Pipeline.arrBufs
  rw [bigSep_eq_bigSepL_of_eq [main_v4, main_v6] gram_arrs (by decide)]
  rfl

/-- ENTRY. The two buffers, whole at the full share at the entry contents, make the three windows' arrays: the
    encoding's full share is its left half (the panel's window) and its right half (the whole array's window). -/
theorem gram_entry (c : Dev nD) :
    (Pipeline.arrBufs (Ix := Unit) (Name := ℕ) (U := UR sig nD τ) (Lvl := ℕ) spec2 c (V5 m c) : sProp 𝕄)
      ⊢ (pdats m 2 c).arrays ((pdats m 2 c).arrAt · 0) := by
  rw [gram_bufs, gram_arrays]
  rw [gram_first0, gram_first1, gram_first2]
  iintro ⟨H4, H6⟩
  ihave H := (pointsTo_share (PosShare.mem_left_op_right fullShare)).1 $$ H4
  icases H with ⟨Hl, Hr⟩
  isplitl [Hl]; · iexact Hl
  isplitl [Hr]; · iexact Hr
  iexact H6

/-- EXIT. The three windows' arrays at their final contents and the unscoped rest are every unscoped buffer at the
    valuation after the region: the encoding's two halves, both at the entry contents, join to its full share; the
    Gram matrix's buffer holds what the write-backs left; nothing else moved. -/
theorem gram_exit (c : Dev nD) :
    iprop((pdats m 2 c).arrays ((pdats m 2 c).arrAt · cfg2.N)
        ∗ Pipeline.unscopedRest (Ix := Unit) (Name := ℕ) (U := UR sig nD τ) (Lvl := ℕ) spec2 c (V5 m c))
      ⊢ (StableHlo.held (c : Thread nD τ) (Pipeline.ucRefs τ sig) (W6 m c) : sProp 𝕄) := by
  rw [← Pipeline.unscopedBufs_held (Ix := Unit) (Name := ℕ) (U := UR sig nD τ) (Lvl := ℕ) c (W6 m c),
    Pipeline.unscopedBufs_split₀ cfgs 2 winFacts₀2.arr_unscoped c (V6 m c)]
  refine sep_mono ?_ (Entails.of_eq ?_)
  · rw [show (Pipeline.arrBufs (Ix := Unit) (Name := ℕ) (U := UR sig nD τ) (Lvl := ℕ) (cfgs 2).spec c (V6 m c) : sProp 𝕄) = _ from gram_bufs c (V6 m c), gram_arrays]
    rw [gram_kept0, gram_kept1,
      show V6 m c main_v4 = V5 m c main_v4 from W6_of_ne m c main_v4 (by decide),
      show V6 m c main_v6 = (pdats m 2 c).arrAt 2 cfg2.N from W6_out m c]
    iintro ⟨Hl, Hr, H6⟩
    isplitl [Hl Hr]
    · iapply (pointsTo_share (PosShare.mem_left_op_right fullShare)).2
      isplitl [Hl] <;> iassumption
    iexact H6
  · unfold Pipeline.unscopedRest
    exact bigSep_congr fun b hb => by
      rw [show V6 m c b = V5 m c b from W6_of_ne m c b fun e =>
        (Finset.mem_sdiff.mp hb).2 (e ▸ Finset.mem_image.mpr ⟨2, Finset.mem_univ _, rfl⟩)]

variable (hfeat : ∀ (V : (c : Dev nD) → (b : Ref sig .tc) → Buf (Elt F) ((c : Thread nD τ).loc b)) (c : Dev nD),
  BodyObligation (FeatRegion.dat (F := F) V c) (defs₀ (F := F)) Variants.none () Set.univ)

/-- The last thread state without what the core owes: every unscoped buffer at the last valuation, the generator
    register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Region 2: entered from every unscoped buffer at `W5`, left at `W6`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (GramRegion.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (StableHlo.held (c : Thread nD τ) (Pipeline.ucRefs τ sig) (W5 m c) : sProp 𝕄)
        ⊢ iprop(Pipeline.arrBufs (Ix := Unit) (Name := ℕ) (U := UR sig nD τ) (Lvl := ℕ) spec2 c (V5 m c)
          ∗ Pipeline.unscopedRest (Ix := Unit) (Name := ℕ) (U := UR sig nD τ) (Lvl := ℕ) spec2 c (V5 m c)) := by
      rw [← Pipeline.unscopedBufs_held (Ix := Unit) (Name := ℕ) (U := UR sig nD τ) (Lvl := ℕ) c (W5 m c)]
      exact Entails.of_eq (Pipeline.unscopedBufs_split₀ cfgs 2 winFacts₀2.arr_unscoped c (V5 m c))
    iintro ⟨⟨Hub, Hp, HO⟩, -, -⟩
    ihave H := hsplit $$ Hub
    icases H with ⟨Hb, Hrest⟩
    ihave Ha := (gram_entry m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (gram_exit m c); isplitl [Ha] <;> iassumption
      iexact HY
    unfold Pipeline.Dat.owesAt Pipeline.owesWithin
    icases HO with ⟨%W, -, HO⟩; iexists W; iexact HO

/-! ## @main as segments, and the run -/

/-- @main's six items in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m hfeat),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m hfeat) := (main_chain c).trans (by chain_rfl)

include hfeat in
set_option backward.isDefEq.respectTransparency.types false in
/-- THE RUN. From any memory with zero counters, every weakly fair execution of @main terminates, nothing
    faulting, and every final state holds each unscoped buffer of each core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m hfeat)
    (fun c Q => by rw [main_run m hfeat c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.FeatRegion.lean ====
/-
  The first region, its proofs. Against the data of the region (the blocks, the three stored values, the proof
  data and its invariant): every input window's staging buffer holds its block at every point; the body's triple
  at a point that is not the first, where the scratch is only loaded, and at the first point, where the scratch is
  stored and then loaded back; and the body obligation at every point, by cases on whether the point is the first.
-/
import proofs.«181382_g32409823216073_cont_9to1_1175_25_alg».proof.Proof.FeatData
import proofs.«181382_g32409823216073_cont_9to1_1175_25_alg».proof.Proof.Gen.KernelIdeal.Launch
import proofs.«181382_g32409823216073_cont_9to1_1175_25_alg».proof.Proof.Gen.KernelIdeal.Skeleton
import proofs.«181382_g32409823216073_cont_9to1_1175_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.FeatRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's staging buffer holds its block at every point, fetched there or not: the body leaves the
    block in place, and where the pipeline does not fetch, the block index has not moved. -/
theorem in0_before {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: the body leaves the
    block in place, and where the pipeline does not fetch, the block index has not moved. -/
theorem in1_before {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: the body leaves the
    block in place, and where the pipeline does not fetch, the block index has not moved. -/
theorem in2_before {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: the body leaves the
    block in place, and where the pipeline does not fetch, the block index has not moved. -/
theorem in3_before {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_0 (c : Dev nD) (t : Fin cfg0.N) (d) : (dat V c).before 0 t d = blk V c 0 t :=
  in0_before V (dat V c) (A_eq V c 0) (after_0 V c) t d
theorem before_1 (c : Dev nD) (t : Fin cfg0.N) (d) : (dat V c).before 1 t d = blk V c 1 t :=
  in1_before V (dat V c) (A_eq V c 1) (after_1 V c) t d
theorem before_2 (c : Dev nD) (t : Fin cfg0.N) (d) : (dat V c).before 2 t d = blk V c 2 t :=
  in2_before V (dat V c) (A_eq V c 2) (after_2 V c) t d
theorem before_3 (c : Dev nD) (t : Fin cfg0.N) (d) : (dat V c).before 3 t d = blk V c 3 t :=
  in3_before V (dat V c) (A_eq V c 3) (after_3 V c) t d

/-- One store through the whole rectangle covers the buffer. -/
theorem cover4 (p0 : Vec F S400x64 .f32) (y : S400x64.Idx) :
    ∃ pc ∈ ([⟨whole4, p0⟩] : List (View.Piece (Elt F) S400x64 .f32)), y ∈ pc.1.set :=
  View.cover_of_tiled [⟨whole4, p0⟩] S400x64.size (by rfl) y
theorem cover5 (p0 : Vec F S400x10000 .bf16) (y : S400x10000.Idx) :
    ∃ pc ∈ ([⟨inP, p0⟩] : List (View.Piece (Elt F) S400x10000 .bf16)), y ∈ pc.1.set :=
  View.cover_of_tiled [⟨inP, p0⟩] S400x10000.size (by rfl) y
theorem coverS (p0 : Vec F S10000x32 .f32) (y : S10000x32.Idx) :
    ∃ pc ∈ ([⟨wholeS, p0⟩] : List (View.Piece (Elt F) S10000x32 .f32)), y ∈ pc.1.set :=
  View.cover_of_tiled [⟨wholeS, p0⟩] S10000x32.size (by rfl) y

/-- A load of the whole scratch right after one store of the whole scratch reads what was stored: the value the
    body computes from the scratch at the first point is computed from the projection it has just stored. -/
theorem scratch_roundtrip {sg : RefSig} {κ : Kind} {sp : Space} (v : View sg κ sp S10000x32 .f32) (w : Vec F S10000x32 .f32) :
    v.readCov [(⟨wholeS, w⟩ : View.Piece (Elt F) S10000x32 .f32)] wholeS.toLoadRect
      = View.ld (View.canon [(⟨wholeS, w⟩ : View.Piece (Elt F) S10000x32 .f32)]) wholeS := by
  have hzS : (![0, 0] : Fin S10000x32.rank → Nat) = fun _ => 0 := by
    funext a; match a with | ⟨0, _⟩ => rfl | ⟨1, _⟩ => rfl
  rw [View.readCov_unit_zero (S := S10000x32) v hzS, View.canon_unit_zero (S := S10000x32) hzS, View.ld_unit_zero (S := S10000x32) hzS]

set_option maxHeartbeats 2000000 in
/-- The body at a point that is not the first, on whole staging memrefs: the inputs and the scratch keep their
    contents, the two outputs end at what the point stores, computed from the scratch as found. -/
theorem triple_later (c : Dev nD) (E : Set ℕ) (i : grid0.Coords) (hc : ¬ isFirst i)
    (arg1 : Memref sig .tc .vmem S10000x128 .f32) (harg1 : arg1.IsWhole) (arg2 : Memref sig .tc .vmem S128x32 .f32) (harg2 : arg2.IsWhole)
    (arg3 : Memref sig .tc .vmem S32x64 .f32) (harg3 : arg3.IsWhole) (arg4 : Memref sig .tc .vmem S400x10000 .f32) (harg4 : arg4.IsWhole)
    (arg5 : Memref sig .tc .vmem S400x64 .f32) (harg5 : arg5.IsWhole) (arg6 : Memref sig .tc .vmem S400x10000 .bf16) (harg6 : arg6.IsWhole)
    (arg7 : Memref sig .tc .vmem S10000x32 .f32) (harg7 : arg7.IsWhole)
    (x0 : Vec F S10000x128 .f32) (x1 : Vec F S128x32 .f32) (x2 : Vec F S32x64 .f32) (x3 : Vec F S400x10000 .f32) (h : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare h
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x3 h x2) ∗ owns (c : Thread nD τ) arg6 fullShare (out5 x3) ∗ owns (c : Thread nD τ) arg7 fullShare h) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f7, %hf7, H7⟩, Hk⟩
  subst hf0; subst hf1; subst hf2; subst hf3; subst hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 (F := F) _)
  isplitl [H5]
  · iexists _; isplitr
    swap; · iexact H5
    ipureintro
    exact View.read_writes_eq_canon _ _ _ (cover5 (F := F) _)
  iexists f7; isplitr; · ipureintro; rfl
  iexact H7

set_option maxHeartbeats 2000000 in
/-- The body at the first point, on whole staging memrefs: the scratch, whatever it held, ends at the feature
    projection of the two loaded operands; the load of the scratch that follows the store reads that projection,
    so the [400, 64] output ends at what the point stores computed from it; the inputs keep their contents. -/
theorem triple_first (c : Dev nD) (E : Set ℕ) (i : grid0.Coords) (hc : isFirst i)
    (arg1 : Memref sig .tc .vmem S10000x128 .f32) (harg1 : arg1.IsWhole) (arg2 : Memref sig .tc .vmem S128x32 .f32) (harg2 : arg2.IsWhole)
    (arg3 : Memref sig .tc .vmem S32x64 .f32) (harg3 : arg3.IsWhole) (arg4 : Memref sig .tc .vmem S400x10000 .f32) (harg4 : arg4.IsWhole)
    (arg5 : Memref sig .tc .vmem S400x64 .f32) (harg5 : arg5.IsWhole) (arg6 : Memref sig .tc .vmem S400x10000 .bf16) (harg6 : arg6.IsWhole)
    (arg7 : Memref sig .tc .vmem S10000x32 .f32) (harg7 : arg7.IsWhole)
    (x0 : Vec F S10000x128 .f32) (x1 : Vec F S128x32 .f32) (x2 : Vec F S32x64 .f32) (x3 : Vec F S400x10000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x3 (feat x0 x1) x2) ∗ owns (c : Thread nD τ) arg6 fullShare (out5 x3) ∗ owns (c : Thread nD τ) arg7 fullShare (feat x0 x1)) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d7, %f7, -, H7⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover4 (F := F) _)).trans ?_
    sl_unfold_words
    unfold out4 feat
    rw [scratch_roundtrip]
    rfl
  isplitl [H5]
  · iexists _; isplitr
    swap; · iexact H5
    ipureintro
    exact View.read_writes_eq_canon _ _ _ (cover5 (F := F) _)
  iexists _; isplitr
  swap; · iexact H7
  ipureintro
  sl_unfold_words
  exact View.read_writes_eq_canon _ _ _ (coverS (F := F) _)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- At the first point what the scratch carries is the projection of that point's own blocks. -/
theorem carried_first (c : Dev nD) (t : Fin cfg0.N) (hz : t.val = 0) :
    carried V c = feat (blk V c 0 t) (blk V c 1 t) := by
  obtain rfl : t = first := Fin.ext hz
  rfl

set_option maxHeartbeats 1000000 in
/-- The body at any point. The inputs' buffers hold their blocks. At the first point the invariant hands over the
    scratch at some contents and takes it back at the projection of the point's blocks, which is what it carries;
    at a later point it hands the scratch over at what it carries and takes it back unchanged. What the core owes
    passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    after_0, after_1, after_2, after_3, after_4, after_5,
    Φ_pos V c t.succ (Nat.succ_ne_zero _)]
  by_cases hz : t.val = 0
  · rw [show t.castSucc = (0 : Fin (cfg0.N + 1)) from Fin.ext hz, Φ_zero, PhiA_eq, carried_first V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (triple_first (F := F) c Set.univ _ ((isFirst_iff t).mpr hz) _ _ _ _ _ _ _ _ _ _ _ _ _ _
      (blk V c 0 t) (blk V c 1 t) (blk V c 2 t) (blk V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Φ_pos V c t.castSucc hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (triple_later (F := F) c Set.univ _ (fun h => hz ((isFirst_iff t).mp h)) _ _ _ _ _ _ _ _ _ _ _ _ _ _
      (blk V c 0 t) (blk V c 1 t) (blk V c 2 t) (blk V c 3 t) (carried V c) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation (c : Dev nD) : BodyObligation (dat (F := F) V c) (defs₀ (F := F)) Variants.none () Set.univ := fun t => by
  rw [bigSep_W0, bigSep_W0]
  exact sound_body V c t

end Cert.KernelIdeal.FeatRegion

end
-- ==== Proof.KFeatData.lean ====
/-
  The first region, its data. Each of the 25 grid points takes a 400-row panel of the adjacency; the three small
  operands (the features, the first weight and the two second weights side by side) are whole arrays, staged
  once. A [10000, 32] scratch carries the feature projection x · W1 from the first point, where it is computed
  and stored, to every later point, where it is only loaded. At every point the body stores
  max (panel · scratch) 0 · [W2 | W3] into the [400, 64] output window and the panel itself, narrowed, into the
  [400, 10000] output window. Stated for any float instance and at a parameter `V`, the buffers' contents when
  the region is entered: the blocks, the three stored values, and the proof data, whose invariant says what the
  scratch holds before each point: anything before the first, the projection before every other.
-/
import proofs.«181382_g32409823216073_cont_9to1_1175_25_alg».proof.Proof.Gen.Kernel.Launch
import proofs.«181382_g32409823216073_cont_9to1_1175_25_alg».proof.Proof.Gen.Kernel.Skeleton
import proofs.«181382_g32409823216073_cont_9to1_1175_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FeatRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- "This is the first grid point", as the body tests it. -/
abbrev isFirst (i : grid0.Coords) : Prop := (Scalar.cmpi .ne (Scalar.extui (Scalar.cmpi .eq (BitVec.ofNat 32 (i 0).val) 0#32)) 0#32) = 1#1

/-- It holds at point 0 and nowhere else (decided over the 25 points). -/
theorem isFirst_iff : ∀ t : Fin cfg0.N, isFirst (grid0.coords t) ↔ t.val = 0 :=
  (by decide +kernel : ∀ t : Fin grid0.N, isFirst (grid0.coords t) ↔ t.val = 0)

/-- Window `w`'s block at point `t`, cut out of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body loads and stores through: each the whole of its buffer. -/
abbrev inX : Rect S10000x128 := Rect.unit (s := S10000x128) ![0, 0] S10000x128.size inb_S10000x128_S10000x128_0_0
abbrev inW : Rect S128x32 := Rect.unit (s := S128x32) ![0, 0] S128x32.size inb_S128x32_S128x32_0_0
abbrev inC : Rect S32x64 := Rect.unit (s := S32x64) ![0, 0] S32x64.size inb_S32x64_S32x64_0_0
abbrev inP : Rect S400x10000 := Rect.unit (s := S400x10000) ![0, 0] S400x10000.size inb_S400x10000_S400x10000_0_0
abbrev wholeS : Rect S10000x32 := Rect.unit (s := S10000x32) ![0, 0] S10000x32.size inb_S10000x32_S10000x32_0_0
abbrev whole4 : Rect S400x64 := Rect.unit (s := S400x64) ![0, 0] S400x64.size inb_S400x64_S400x64_0_0

/-- The feature projection, as the first point stores it into the scratch. -/
def feat (x0 : Vec F S10000x128 .f32) (x1 : Vec F S128x32 .f32) : Vec F S10000x32 .f32 :=
  View.canon [⟨wholeS, k0_pay1 (View.ld x0 inX) (View.ld x1 inW)⟩]

/-- What a point stores into the [400, 64] output window, from its panel, the scratch and the second weights. -/
def out4 (x3 : Vec F S400x10000 .f32) (h : Vec F S10000x32 .f32) (x2 : Vec F S32x64 .f32) : Vec F S400x64 .f32 :=
  View.canon [⟨whole4, k0_pay3 (View.ld x3 inP) (View.ld h wholeS) (View.ld x2 inC)⟩]

/-- What a point stores into the [400, 10000] output window: its panel, narrowed. -/
def out5 (x3 : Vec F S400x10000 .f32) : Vec F S400x10000 .bf16 :=
  View.canon [⟨inP, k0_pay2 (View.ld x3 inP)⟩]

/-- The first grid point. -/
def first : Fin cfg0.N := ⟨0, by show 0 < grid0.N; rw [N_0]; decide⟩

/-- What the scratch carries from the first point on: the projection of the whole features by the whole first weight. -/
def carried (c : Dev nD) : Vec F S10000x32 .f32 := feat (blk V c 0 first) (blk V c 1 first)

/-- The scratch, as the body is handed it. -/
abbrev scratch : Memref sig .tc .vmem S10000x32 .f32 := Memref.whole cc0_scratch0

/-- The core's other scoped buffers that this region does not stage: each at some contents. -/
def rest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The region invariant with the scratch taken out as an owned memref. -/
theorem PhiA_eq (c : Dev nD) :
    (Pipeline.ΦA spec0 c : sProp 𝕄) = iprop(((∃ d, owns (c : Thread nD τ) scratch fullShare d) ∗ rest c) ∗ (∃ r, prngReg c r)) := by
  unfold Pipeline.ΦA rest; rw [scopedRest0_eq]; simp only [scratch, owns_whole]; try rfl

/-- The proof data: the arrays as the region finds them; after the body every input's buffer still at its block,
    the two outputs' at what the point stores, computed from the carried projection; before the first point the
    scratch holds anything, before every other point the projection. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => out4 (blk V c 3 t) (carried V c) (blk V c 2 t)
    | ⟨5, _⟩ => out5 (blk V c 3 t)
  Φ t := if t.val = 0 then Pipeline.ΦA spec0 c
    else iprop((owns (c : Thread nD τ) scratch fullShare (carried V c) ∗ rest c) ∗ (∃ r, prngReg c r))
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = out4 (blk V c 3 t) (carried V c) (blk V c 2 t) := by dsimp only [dat]
theorem after_5 (c : Dev nD) (t : Fin cfg0.N) : (dat V c).after 5 t = out5 (blk V c 3 t) := by dsimp only [dat]

/-- Before the first point the invariant is the region's plain one. -/
theorem Φ_zero (c : Dev nD) : (dat V c).Φ 0 = Pipeline.ΦA spec0 c := by
  dsimp only [dat]; exact if_pos rfl

/-- Before a later point it names the scratch's contents. -/
theorem Φ_pos (c : Dev nD) (t : Fin (cfg0.N + 1)) (ht : t.val ≠ 0) :
    (dat V c).Φ t = iprop((owns (c : Thread nD τ) scratch fullShare (carried V c) ∗ rest c) ∗ (∃ r, prngReg c r)) := by
  dsimp only [dat]; exact if_neg ht

/-- After the last point it gives the plain invariant back: the scratch at the projection is the scratch at something. -/
theorem Φ_last (c : Dev nD) : (dat V c).Φ (Fin.last cfg0.N) ⊢ (Pipeline.ΦA spec0 c : sProp 𝕄) := by
  rw [Φ_pos V c (Fin.last cfg0.N) (by rw [Fin.val_last]; show grid0.N ≠ 0; rw [N_0]; decide), PhiA_eq]
  iintro ⟨⟨Hs, Hr⟩, Hp⟩
  isplitr [Hp]
  · isplitl [Hs]
    · iexists _; iexact Hs
    iexact Hr
  iexact Hp

end Cert.Kernel.FeatRegion

end
-- ==== Proof.KEncRegion.lean ====
/-
  The second region: each grid point multiplies a 1000-row panel of the (copied) adjacency by the whole
  [10000, 64] projection and stores the [1000, 64] product. Stated for any float instance and at a parameter
  `V`, the buffers' contents when the region is entered: what a window's block is at a point, what the body
  leaves in the output's staging buffer, the body's triple, the proof data and the body obligation.
-/
import proofs.«181382_g32409823216073_cont_9to1_1175_25_alg».proof.Proof.Gen.Kernel.Launch
import proofs.«181382_g32409823216073_cont_9to1_1175_25_alg».proof.Proof.Gen.Kernel.Skeleton
import proofs.«181382_g32409823216073_cont_9to1_1175_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EncRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row panel is in its staging buffer at every point (it is fetched at every point). -/
theorem panel_before {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The resident operand is in its staging buffer at every point (fetched once; its block never moves and the
    body leaves it in place). -/
theorem resident_before {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each the whole of its buffer. -/
abbrev inA : Rect S1000x10000 := Rect.unit (s := S1000x10000) ![0, 0] S1000x10000.size inb_S1000x10000_S1000x10000_0_0
abbrev inB : Rect S10000x64 := Rect.unit (s := S10000x64) ![0, 0] S10000x64.size inb_S10000x64_S10000x64_0_0
abbrev whole : Rect S1000x64 := Rect.unit (s := S1000x64) ![0, 0] S1000x64.size inb_S1000x64_S1000x64_0_0

/-- What the body leaves in the output's staging buffer: its one store, of the product of what it loaded. -/
def out (x0 : Vec F S1000x10000 .bf16) (x1 : Vec F S10000x64 .bf16) : Vec F S1000x64 .f32 :=
  View.canon [⟨whole, k1_pay1 (View.ld x0 inA) (View.ld x1 inB)⟩]

theorem out_cover (p0 : Vec F S1000x64 .f32) (y : S1000x64.Idx) :
    ∃ pc ∈ ([⟨whole, p0⟩] : List (View.Piece (Elt F) S1000x64 .f32)), y ∈ pc.1.set :=
  View.cover_of_tiled [⟨whole, p0⟩] S1000x64.size (by rfl) y

set_option maxHeartbeats 1000000 in
/-- The body on whole staging memrefs: the inputs keep their contents, the output ends at `out` of them. -/
theorem body_triple (c : Dev nD) (E : Set ℕ) (i : grid1.Coords)
    (arg1 : Memref sig .tc .vmem S1000x10000 .bf16) (harg1 : arg1.IsWhole) (arg2 : Memref sig .tc .vmem S10000x64 .bf16) (harg2 : arg2.IsWhole)
    (arg3 : Memref sig .tc .vmem S1000x64 .f32) (harg3 : arg3.IsWhole)
    (x0 : Vec F S1000x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__pass2_body i arg1 harg1 arg2 harg2 arg3 harg3) K := by
  simp only [cc1__pass2_body_eq_skeleton]; unfold cc1__pass2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover (F := F) _)

/-- The proof data: the arrays as the region finds them; after the body each input's buffer still at its block,
    the output's at the product of the two blocks; the invariant is the buffers the region does not touch. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => out (blk V c 0 t) (blk V c 1 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = out (blk V c 0 t) (blk V c 1 t) := by dsimp only [dat]

theorem before_0 (c : Dev nD) (t : Fin cfg1.N) (d) : (dat V c).before 0 t d = blk V c 0 t :=
  panel_before V (dat V c) (A_eq V c 0) (after_0 V c) t d
theorem before_1 (c : Dev nD) (t : Fin cfg1.N) (d) : (dat V c).before 1 t d = blk V c 1 t :=
  resident_before V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the triple applies; the invariant and what
    the core owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_triple (F := F) c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat (F := F) V c) (defs₀ (F := F)) Variants.none () Set.univ := fun t => by
  rw [bigSep_W1, bigSep_W1]
  exact sound_body V c t

end Cert.Kernel.EncRegion

end
-- ==== Proof.KGramRegion.lean ====
/-
  The third region: each grid point multiplies a 400-row panel of the encoding by the transpose of the whole
  [10000, 32] encoding and stores the [400, 10000] product. The panel and the whole encoding are two windows
  on ONE array, which both only read: each holds half of that array's share. Stated for any float instance
  and at a parameter `V`, the buffers' contents when the region is entered.
-/
import proofs.«181382_g32409823216073_cont_9to1_1175_25_alg».proof.Proof.Gen.Kernel.Launch
import proofs.«181382_g32409823216073_cont_9to1_1175_25_alg».proof.Proof.Gen.Kernel.Skeleton
import proofs.«181382_g32409823216073_cont_9to1_1175_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GramRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row panel is in its staging buffer at every point (it is fetched at every point). -/
theorem panel_before {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The resident operand is in its staging buffer at every point (fetched once; its block never moves and the
    body leaves it in place). -/
theorem resident_before {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each the whole of its buffer. -/
abbrev inA : Rect S400x32 := Rect.unit (s := S400x32) ![0, 0] S400x32.size inb_S400x32_S400x32_0_0
abbrev inB : Rect S10000x32 := Rect.unit (s := S10000x32) ![0, 0] S10000x32.size inb_S10000x32_S10000x32_0_0
abbrev whole : Rect S400x10000 := Rect.unit (s := S400x10000) ![0, 0] S400x10000.size inb_S400x10000_S400x10000_0_0

/-- What the body leaves in the output's staging buffer: its one store, of the product of what it loaded. -/
def out (x0 : Vec F S400x32 .f32) (x1 : Vec F S10000x32 .f32) : Vec F S400x10000 .f32 :=
  View.canon [⟨whole, k2_pay1 (View.ld x0 inA) (View.ld x1 inB)⟩]

theorem out_cover (p0 : Vec F S400x10000 .f32) (y : S400x10000.Idx) :
    ∃ pc ∈ ([⟨whole, p0⟩] : List (View.Piece (Elt F) S400x10000 .f32)), y ∈ pc.1.set :=
  View.cover_of_tiled [⟨whole, p0⟩] S400x10000.size (by rfl) y

set_option maxHeartbeats 1000000 in
/-- The body on whole staging memrefs: the inputs keep their contents, the output ends at `out` of them. -/
theorem body_triple (c : Dev nD) (E : Set ℕ) (i : grid2.Coords)
    (arg1 : Memref sig .tc .vmem S400x32 .f32) (harg1 : arg1.IsWhole) (arg2 : Memref sig .tc .vmem S10000x32 .f32) (harg2 : arg2.IsWhole)
    (arg3 : Memref sig .tc .vmem S400x10000 .f32) (harg3 : arg3.IsWhole)
    (x0 : Vec F S400x32 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc2__gram_body i arg1 harg1 arg2 harg2 arg3 harg3) K := by
  simp only [cc2__gram_body_eq_skeleton]; unfold cc2__gram_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover (F := F) _)

/-- The proof data: the arrays as the region finds them; after the body each input's buffer still at its block,
    the output's at the product of the two blocks; the invariant is the buffers the region does not touch. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => out (blk V c 0 t) (blk V c 1 t)
  Φ _ := Pipeline.ΦA spec2 c
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = out (blk V c 0 t) (blk V c 1 t) := by dsimp only [dat]

theorem before_0 (c : Dev nD) (t : Fin cfg2.N) (d) : (dat V c).before 0 t d = blk V c 0 t :=
  panel_before V (dat V c) (A_eq V c 0) (after_0 V c) t d
theorem before_1 (c : Dev nD) (t : Fin cfg2.N) (d) : (dat V c).before 1 t d = blk V c 1 t :=
  resident_before V (dat V c) (A_eq V c 1) (after_1 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so the triple applies; the invariant and what
    the core owes pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_triple (F := F) c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat (F := F) V c) (defs₀ (F := F)) Variants.none () Set.univ := fun t => by
  rw [bigSep_W2, bigSep_W2]
  exact sound_body V c t

end Cert.Kernel.GramRegion

end
-- ==== Proof.KRun.lean ====
/-
  The kernel's whole run. @main is a host concatenation, the first region, a host narrowing, the second region,
  two host slices, the third region. Between two items every unscoped buffer of the core is held at a named
  valuation: the launch memory, then each host stretch applied, then each region's arrays at what its
  write-backs leave. Each region is a segment entered from the valuation before it and left at the one after;
  the run ends with every unscoped buffer at the last valuation, from which both the argument arrays (unchanged)
  and the three results can be read. The first region's body obligation is taken as a hypothesis here.
-/
import proofs.«181382_g32409823216073_cont_9to1_1175_25_alg».proof.Proof.KFeatData
import proofs.«181382_g32409823216073_cont_9to1_1175_25_alg».proof.Proof.KEncRegion
import proofs.«181382_g32409823216073_cont_9to1_1175_25_alg».proof.Proof.KGramRegion
import proofs.«181382_g32409823216073_cont_9to1_1175_25_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the concatenation of the two second weights. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, everything else as it was. -/
def W2 (c : Dev nD) : Valuation τ sig (Elt F) :=
  Pipeline.withArrays spec0 c (W1 m c) fun w => (FeatRegion.dat (V1 m) c).arrAt w cfg0.N
theorem W2_arr (c : Dev nD) (w : Fin cfg0.W) :
    W2 m c (Proc.devRef .tc (Pipeline.arrRef spec0 w)) = (FeatRegion.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (FeatRegion.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the narrowing of the first region's [10000, 64] result. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (EncRegion.dat (V3 m) c).arrAt w cfg1.N
theorem W4_arr (c : Dev nD) (w : Fin cfg1.W) :
    W4 m c (Proc.devRef .tc (Pipeline.arrRef spec1 w)) = (EncRegion.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (EncRegion.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the two column slices. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third region: the Gram matrix's buffer at what the write-backs leave; the encoding it reads twice
    is untouched. -/
def W6 (c : Dev nD) : Valuation τ sig (Elt F) :=
  Function.update (W5 m c) (Proc.devRef .tc main_v6) ((GramRegion.dat (V5 m) c).arrAt 2 cfg2.N)
theorem W6_out (c : Dev nD) : W6 m c (Proc.devRef .tc main_v6) = (GramRegion.dat (V5 m) c).arrAt 2 cfg2.N := by
  unfold W6; exact Function.update_self ..
theorem W6_of_ne (c : Dev nD) (b : Ref sig .tc) (hb : b ≠ main_v6) : W6 m c (Proc.devRef .tc b) = W5 m c (Proc.devRef .tc b) := by
  unfold W6; exact Function.update_of_ne (StableHlo.devRef_ne_of_ne hb) ..
abbrev V6 : (c : Dev nD) → (b : Ref sig .tc) → Buf (Elt F) ((c : Thread nD τ).loc b) := fun c b => W6 m c b

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((FeatRegion.dat (V1 m) c).arrAt_in 0 rfl _).trans (FeatRegion.A_eq (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 3).trans (((FeatRegion.dat (V1 m) c).arrAt_in 3 rfl _).trans (FeatRegion.A_eq (V1 m) c 3))
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 1).trans (((FeatRegion.dat (V1 m) c).arrAt_in 1 rfl _).trans (FeatRegion.A_eq (V1 m) c 1))
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => FeatRegion.dat (V1 m) c
  | ⟨1, _⟩ => fun c => EncRegion.dat (V3 m) c
  | ⟨2, _⟩ => fun c => GramRegion.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (hfeat : ∀ (V : (c : Dev nD) → (b : Ref sig .tc) → Buf (Elt F) ((c : Thread nD τ).loc b)) (c : Dev nD),
  BodyObligation (FeatRegion.dat (F := F) V c) (defs₀ (F := F)) Variants.none () Set.univ)

/-! ## The regions as segments -/

set_option backward.isDefEq.respectTransparency.types false in
/-- Region 0: entered from every unscoped buffer at `W1`, left at `W2`. Its arrays are split out of the
    unscoped buffers at entry and put back at their final contents at exit; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hfeat (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from FeatRegion.Φ_zero (V1 m) c]; unfold Pipeline.ΦA
    iintro ⟨Hp, -, Hr⟩
    isplitl [Hr]; · iexact Hr
    iexact Hp
  hout c := by
    refine (show (pdats m 0 c).Φ (Fin.last _) ⊢ (Pipeline.ΦA spec0 c : sProp 𝕄) from FeatRegion.Φ_last (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the
    unscoped buffers at entry and put back at their final contents at exit; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (EncRegion.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KRunAll.lean ====
/-
  The third region as a segment, and the whole run. The third region reads the encoding through two windows
  (a row panel and the whole array) and writes the Gram matrix. At entry the encoding's buffer, held whole at the
  full share, is dealt to the two windows as its two halves; at exit the two halves, both still at the entry
  contents, are joined again. The run then chains the six items of @main and ends with every unscoped buffer of
  the core at the last valuation.
-/
import proofs.«181382_g32409823216073_cont_9to1_1175_25_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the third region's three windows: the encoding (read twice) and the Gram matrix. -/
theorem gram_arrs : Finset.univ.image (Pipeline.arrRef spec2) = ([main_v4, main_v6] : List (Ref sig .tc)).toFinset := by decide

/-- The third region's arrays, window by window: the panel's window holds the encoding's buffer at the left half
    of its share, the whole array's window at the right half, the output window the Gram matrix's buffer outright. -/
theorem gram_arrays (c : Dev nD) (G : (w : Fin cfg2.W) → Buf (Elt F) ((cfg2.win w).arr.view.loc (c : Thread nD τ))) :
    ((pdats m 2 c).arrays G : sProp 𝕄)
      = iprop((((c : Thread nD τ).loc main_v4) ↦{fullShare.left} G 0) ∗ (((c : Thread nD τ).loc main_v4) ↦{fullShare.right} G 1)
          ∗ (((c : Thread nD τ).loc main_v6) ↦{fullShare} G 2)) := by
  unfold Dat.arrays
  rw [bigSep_W2]
  have h0 : ((Pipeline.pin (pcfgs (F := F)) adm 2).win (0 : Fin 3)).arr.view.set = Finset.univ := (arr_whole2 0).set_eq_univ
  have h1 : ((Pipeline.pin (pcfgs (F := F)) adm 2).win (1 : Fin 3)).arr.view.set = Finset.univ := (arr_whole2 1).set_eq_univ
  have h2 : ((Pipeline.pin (pcfgs (F := F)) adm 2).win (2 : Fin 3)).arr.view.set = Finset.univ := (arr_whole2 2).set_eq_univ
  rw [show ((pdats m 2 c).share 0) = fullShare.left from rfl, show ((pdats m 2 c).share 1) = fullShare.right from rfl,
    show ((pdats m 2 c).share 2) = fullShare from rfl]
  refine congrArg₂ _ (by first | (rw [h0]; rfl) | (erw [h0]; rfl) | (simp only [h0]; rfl)) (congrArg₂ _ (by first | (rw [h1]; rfl) | (erw [h1]; rfl) | (simp only [h1]; rfl)) (by first | (rw [h2]; rfl) | (erw [h2]; rfl) | (simp only [h2]; rfl)))

/-- The encoding is what both of its windows hold at entry and at exit: both only read it. -/
theorem gram_first0 (c : Dev nD) : (pdats m 2 c).arrAt 0 0 = V5 m c main_v4 := GramRegion.A_eq (V5 m) c 0
theorem gram_first1 (c : Dev nD) : (pdats m 2 c).arrAt 1 0 = V5 m c main_v4 := GramRegion.A_eq (V5 m) c 1
theorem gram_first2 (c : Dev nD) : (pdats m 2 c).arrAt 2 0 = V5 m c main_v6 := GramRegion.A_eq (V5 m) c 2
theorem gram_kept0 (c : Dev nD) : (pdats m 2 c).arrAt 0 cfg2.N = V5 m c main_v4 :=
  ((GramRegion.dat (V5 m) c).arrAt_in 0 rfl _).trans (GramRegion.A_eq (V5 m) c 0)
theorem gram_kept1 (c : Dev nD) : (pdats m 2 c).arrAt 1 cfg2.N = V5 m c main_v4 :=
  ((GramRegion.dat (V5 m) c).arrAt_in 1 rfl _).trans (GramRegion.A_eq (V5 m) c 1)

/-- The two distinct buffers behind the windows, each whole at the full share at contents `V`. -/
theorem gram_bufs (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v4) ↦{fullShare} V main_v4) ∗ (((c : Thread nD τ).loc main_v6) ↦{fullShare} V main_v6)) := by
  unfold Pipeline.arrBufs
  rw [bigSep_eq_bigSepL_of_eq [main_v4, main_v6] gram_arrs (by decide)]
  rfl

/-- ENTRY. The two buffers, whole at the full share at the entry contents, make the three windows' arrays: the
    encoding's full share is its left half (the panel's window) and its right half (the whole array's window). -/
theorem gram_entry (c : Dev nD) :
    (Pipeline.arrBufs (Ix := Unit) (Name := ℕ) (U := UR sig nD τ) (Lvl := ℕ) spec2 c (V5 m c) : sProp 𝕄)
      ⊢ (pdats m 2 c).arrays ((pdats m 2 c).arrAt · 0) := by
  rw [gram_bufs, gram_arrays]
  rw [gram_first0, gram_first1, gram_first2]
  iintro ⟨H4, H6⟩
  ihave H := (pointsTo_share (PosShare.mem_left_op_right fullShare)).1 $$ H4
  icases H with ⟨Hl, Hr⟩
  isplitl [Hl]; · iexact Hl
  isplitl [Hr]; · iexact Hr
  iexact H6

/-- EXIT. The three windows' arrays at their final contents and the unscoped rest are every unscoped buffer at the
    valuation after the region: the encoding's two halves, both at the entry contents, join to its full share; the
    Gram matrix's buffer holds what the write-backs left; nothing else moved. -/
theorem gram_exit (c : Dev nD) :
    iprop((pdats m 2 c).arrays ((pdats m 2 c).arrAt · cfg2.N)
        ∗ Pipeline.unscopedRest (Ix := Unit) (Name := ℕ) (U := UR sig nD τ) (Lvl := ℕ) spec2 c (V5 m c))
      ⊢ (StableHlo.held (c : Thread nD τ) (Pipeline.ucRefs τ sig) (W6 m c) : sProp 𝕄) := by
  rw [← Pipeline.unscopedBufs_held (Ix := Unit) (Name := ℕ) (U := UR sig nD τ) (Lvl := ℕ) c (W6 m c),
    Pipeline.unscopedBufs_split₀ cfgs 2 winFacts₀2.arr_unscoped c (V6 m c)]
  refine sep_mono ?_ (Entails.of_eq ?_)
  · rw [show (Pipeline.arrBufs (Ix := Unit) (Name := ℕ) (U := UR sig nD τ) (Lvl := ℕ) (cfgs 2).spec c (V6 m c) : sProp 𝕄) = _ from gram_bufs c (V6 m c), gram_arrays]
    rw [gram_kept0, gram_kept1,
      show V6 m c main_v4 = V5 m c main_v4 from W6_of_ne m c main_v4 (by decide),
      show V6 m c main_v6 = (pdats m 2 c).arrAt 2 cfg2.N from W6_out m c]
    iintro ⟨Hl, Hr, H6⟩
    isplitl [Hl Hr]
    · iapply (pointsTo_share (PosShare.mem_left_op_right fullShare)).2
      isplitl [Hl] <;> iassumption
    iexact H6
  · unfold Pipeline.unscopedRest
    exact bigSep_congr fun b hb => by
      rw [show V6 m c b = V5 m c b from W6_of_ne m c b fun e =>
        (Finset.mem_sdiff.mp hb).2 (e ▸ Finset.mem_image.mpr ⟨2, Finset.mem_univ _, rfl⟩)]

variable (hfeat : ∀ (V : (c : Dev nD) → (b : Ref sig .tc) → Buf (Elt F) ((c : Thread nD τ).loc b)) (c : Dev nD),
  BodyObligation (FeatRegion.dat (F := F) V c) (defs₀ (F := F)) Variants.none () Set.univ)

/-- The last thread state without what the core owes: every unscoped buffer at the last valuation, the generator
    register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Region 2: entered from every unscoped buffer at `W5`, left at `W6`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (GramRegion.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (StableHlo.held (c : Thread nD τ) (Pipeline.ucRefs τ sig) (W5 m c) : sProp 𝕄)
        ⊢ iprop(Pipeline.arrBufs (Ix := Unit) (Name := ℕ) (U := UR sig nD τ) (Lvl := ℕ) spec2 c (V5 m c)
          ∗ Pipeline.unscopedRest (Ix := Unit) (Name := ℕ) (U := UR sig nD τ) (Lvl := ℕ) spec2 c (V5 m c)) := by
      rw [← Pipeline.unscopedBufs_held (Ix := Unit) (Name := ℕ) (U := UR sig nD τ) (Lvl := ℕ) c (W5 m c)]
      exact Entails.of_eq (Pipeline.unscopedBufs_split₀ cfgs 2 winFacts₀2.arr_unscoped c (V5 m c))
    iintro ⟨⟨Hub, Hp, HO⟩, -, -⟩
    ihave H := hsplit $$ Hub
    icases H with ⟨Hb, Hrest⟩
    ihave Ha := (gram_entry m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (gram_exit m c); isplitl [Ha] <;> iassumption
      iexact HY
    unfold Pipeline.Dat.owesAt Pipeline.owesWithin
    icases HO with ⟨%W, -, HO⟩; iexists W; iexact HO

/-! ## @main as segments, and the run -/

/-- @main's six items in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m hfeat),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m hfeat) := (main_chain c).trans (by chain_rfl)

include hfeat in
set_option backward.isDefEq.respectTransparency.types false in
/-- THE RUN. From any memory with zero counters, every weakly fair execution of @main terminates, nothing
    faulting, and every final state holds each unscoped buffer of each core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m hfeat)
    (fun c Q => by rw [main_run m hfeat c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.KFeatRegion.lean ====
/-
  The first region, its proofs. Against the data of the region (the blocks, the three stored values, the proof
  data and its invariant): every input window's staging buffer holds its block at every point; the body's triple
  at a point that is not the first, where the scratch is only loaded, and at the first point, where the scratch is
  stored and then loaded back; and the body obligation at every point, by cases on whether the point is the first.
-/
import proofs.«181382_g32409823216073_cont_9to1_1175_25_alg».proof.Proof.KFeatData
import proofs.«181382_g32409823216073_cont_9to1_1175_25_alg».proof.Proof.Gen.Kernel.Launch
import proofs.«181382_g32409823216073_cont_9to1_1175_25_alg».proof.Proof.Gen.Kernel.Skeleton
import proofs.«181382_g32409823216073_cont_9to1_1175_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.FeatRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's staging buffer holds its block at every point, fetched there or not: the body leaves the
    block in place, and where the pipeline does not fetch, the block index has not moved. -/
theorem in0_before {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: the body leaves the
    block in place, and where the pipeline does not fetch, the block index has not moved. -/
theorem in1_before {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: the body leaves the
    block in place, and where the pipeline does not fetch, the block index has not moved. -/
theorem in2_before {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: the body leaves the
    block in place, and where the pipeline does not fetch, the block index has not moved. -/
theorem in3_before {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_0 (c : Dev nD) (t : Fin cfg0.N) (d) : (dat V c).before 0 t d = blk V c 0 t :=
  in0_before V (dat V c) (A_eq V c 0) (after_0 V c) t d
theorem before_1 (c : Dev nD) (t : Fin cfg0.N) (d) : (dat V c).before 1 t d = blk V c 1 t :=
  in1_before V (dat V c) (A_eq V c 1) (after_1 V c) t d
theorem before_2 (c : Dev nD) (t : Fin cfg0.N) (d) : (dat V c).before 2 t d = blk V c 2 t :=
  in2_before V (dat V c) (A_eq V c 2) (after_2 V c) t d
theorem before_3 (c : Dev nD) (t : Fin cfg0.N) (d) : (dat V c).before 3 t d = blk V c 3 t :=
  in3_before V (dat V c) (A_eq V c 3) (after_3 V c) t d

/-- One store through the whole rectangle covers the buffer. -/
theorem cover4 (p0 : Vec F S400x64 .f32) (y : S400x64.Idx) :
    ∃ pc ∈ ([⟨whole4, p0⟩] : List (View.Piece (Elt F) S400x64 .f32)), y ∈ pc.1.set :=
  View.cover_of_tiled [⟨whole4, p0⟩] S400x64.size (by rfl) y
theorem cover5 (p0 : Vec F S400x10000 .bf16) (y : S400x10000.Idx) :
    ∃ pc ∈ ([⟨inP, p0⟩] : List (View.Piece (Elt F) S400x10000 .bf16)), y ∈ pc.1.set :=
  View.cover_of_tiled [⟨inP, p0⟩] S400x10000.size (by rfl) y
theorem coverS (p0 : Vec F S10000x32 .f32) (y : S10000x32.Idx) :
    ∃ pc ∈ ([⟨wholeS, p0⟩] : List (View.Piece (Elt F) S10000x32 .f32)), y ∈ pc.1.set :=
  View.cover_of_tiled [⟨wholeS, p0⟩] S10000x32.size (by rfl) y

/-- A load of the whole scratch right after one store of the whole scratch reads what was stored: the value the
    body computes from the scratch at the first point is computed from the projection it has just stored. -/
theorem scratch_roundtrip {sg : RefSig} {κ : Kind} {sp : Space} (v : View sg κ sp S10000x32 .f32) (w : Vec F S10000x32 .f32) :
    v.readCov [(⟨wholeS, w⟩ : View.Piece (Elt F) S10000x32 .f32)] wholeS.toLoadRect
      = View.ld (View.canon [(⟨wholeS, w⟩ : View.Piece (Elt F) S10000x32 .f32)]) wholeS := by
  have hzS : (![0, 0] : Fin S10000x32.rank → Nat) = fun _ => 0 := by
    funext a; match a with | ⟨0, _⟩ => rfl | ⟨1, _⟩ => rfl
  rw [View.readCov_unit_zero (S := S10000x32) v hzS, View.canon_unit_zero (S := S10000x32) hzS, View.ld_unit_zero (S := S10000x32) hzS]

set_option maxHeartbeats 2000000 in
/-- The body at a point that is not the first, on whole staging memrefs: the inputs and the scratch keep their
    contents, the two outputs end at what the point stores, computed from the scratch as found. -/
theorem triple_later (c : Dev nD) (E : Set ℕ) (i : grid0.Coords) (hc : ¬ isFirst i)
    (arg1 : Memref sig .tc .vmem S10000x128 .f32) (harg1 : arg1.IsWhole) (arg2 : Memref sig .tc .vmem S128x32 .f32) (harg2 : arg2.IsWhole)
    (arg3 : Memref sig .tc .vmem S32x64 .f32) (harg3 : arg3.IsWhole) (arg4 : Memref sig .tc .vmem S400x10000 .f32) (harg4 : arg4.IsWhole)
    (arg5 : Memref sig .tc .vmem S400x64 .f32) (harg5 : arg5.IsWhole) (arg6 : Memref sig .tc .vmem S400x10000 .bf16) (harg6 : arg6.IsWhole)
    (arg7 : Memref sig .tc .vmem S10000x32 .f32) (harg7 : arg7.IsWhole)
    (x0 : Vec F S10000x128 .f32) (x1 : Vec F S128x32 .f32) (x2 : Vec F S32x64 .f32) (x3 : Vec F S400x10000 .f32) (h : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare h
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x3 h x2) ∗ owns (c : Thread nD τ) arg6 fullShare (out5 x3) ∗ owns (c : Thread nD τ) arg7 fullShare h) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f7, %hf7, H7⟩, Hk⟩
  subst hf0; subst hf1; subst hf2; subst hf3; subst hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 (F := F) _)
  isplitl [H5]
  · iexists _; isplitr
    swap; · iexact H5
    ipureintro
    exact View.read_writes_eq_canon _ _ _ (cover5 (F := F) _)
  iexists f7; isplitr; · ipureintro; rfl
  iexact H7

set_option maxHeartbeats 2000000 in
/-- The body at the first point, on whole staging memrefs: the scratch, whatever it held, ends at the feature
    projection of the two loaded operands; the load of the scratch that follows the store reads that projection,
    so the [400, 64] output ends at what the point stores computed from it; the inputs keep their contents. -/
theorem triple_first (c : Dev nD) (E : Set ℕ) (i : grid0.Coords) (hc : isFirst i)
    (arg1 : Memref sig .tc .vmem S10000x128 .f32) (harg1 : arg1.IsWhole) (arg2 : Memref sig .tc .vmem S128x32 .f32) (harg2 : arg2.IsWhole)
    (arg3 : Memref sig .tc .vmem S32x64 .f32) (harg3 : arg3.IsWhole) (arg4 : Memref sig .tc .vmem S400x10000 .f32) (harg4 : arg4.IsWhole)
    (arg5 : Memref sig .tc .vmem S400x64 .f32) (harg5 : arg5.IsWhole) (arg6 : Memref sig .tc .vmem S400x10000 .bf16) (harg6 : arg6.IsWhole)
    (arg7 : Memref sig .tc .vmem S10000x32 .f32) (harg7 : arg7.IsWhole)
    (x0 : Vec F S10000x128 .f32) (x1 : Vec F S128x32 .f32) (x2 : Vec F S32x64 .f32) (x3 : Vec F S400x10000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x3 (feat x0 x1) x2) ∗ owns (c : Thread nD τ) arg6 fullShare (out5 x3) ∗ owns (c : Thread nD τ) arg7 fullShare (feat x0 x1)) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d7, %f7, -, H7⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover4 (F := F) _)).trans ?_
    sl_unfold_words
    unfold out4 feat
    rw [scratch_roundtrip]
    rfl
  isplitl [H5]
  · iexists _; isplitr
    swap; · iexact H5
    ipureintro
    exact View.read_writes_eq_canon _ _ _ (cover5 (F := F) _)
  iexists _; isplitr
  swap; · iexact H7
  ipureintro
  sl_unfold_words
  exact View.read_writes_eq_canon _ _ _ (coverS (F := F) _)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- At the first point what the scratch carries is the projection of that point's own blocks. -/
theorem carried_first (c : Dev nD) (t : Fin cfg0.N) (hz : t.val = 0) :
    carried V c = feat (blk V c 0 t) (blk V c 1 t) := by
  obtain rfl : t = first := Fin.ext hz
  rfl

set_option maxHeartbeats 1000000 in
/-- The body at any point. The inputs' buffers hold their blocks. At the first point the invariant hands over the
    scratch at some contents and takes it back at the projection of the point's blocks, which is what it carries;
    at a later point it hands the scratch over at what it carries and takes it back unchanged. What the core owes
    passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    after_0, after_1, after_2, after_3, after_4, after_5,
    Φ_pos V c t.succ (Nat.succ_ne_zero _)]
  by_cases hz : t.val = 0
  · rw [show t.castSucc = (0 : Fin (cfg0.N + 1)) from Fin.ext hz, Φ_zero, PhiA_eq, carried_first V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (triple_first (F := F) c Set.univ _ ((isFirst_iff t).mpr hz) _ _ _ _ _ _ _ _ _ _ _ _ _ _
      (blk V c 0 t) (blk V c 1 t) (blk V c 2 t) (blk V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Φ_pos V c t.castSucc hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (triple_later (F := F) c Set.univ _ (fun h => hz ((isFirst_iff t).mp h)) _ _ _ _ _ _ _ _ _ _ _ _ _ _
      (blk V c 0 t) (blk V c 1 t) (blk V c 2 t) (blk V c 3 t) (carried V c) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation (c : Dev nD) : BodyObligation (dat (F := F) V c) (defs₀ (F := F)) Variants.none () Set.univ := fun t => by
  rw [bigSep_W0, bigSep_W0]
  exact sound_body V c t

end Cert.Kernel.FeatRegion

end
-- ==== Proof.Spec.lean ====
/-
  The network both programs compute, written once, index by index, over the extended reals.

  From node features `x` (10000 × 128), a dense adjacency `adj` (10000 × 10000) and weights `w1` (128 × 32),
  `w` (32 × 32):
    feat   = x · w1                       (10000 × 32)
    hidden = max (adj · feat) 0           (10000 × 32)
    proj w = hidden · w                   (10000 × 32)
    enc  w = adj · proj w                 (10000 × 32)
    gram   = enc w2 · (enc w2)ᵀ           (10000 × 10000)
  Every product is the plain sum over the contracted axis, factors in the order written. Nothing here needs the
  entries to be finite: only sums and products are formed, in one fixed grouping.
-/
import Idealize.ShloMosaic.PureOps.Ideal
import Idealize.ShloMosaic.Lib.ValueIdx

noncomputable section

namespace Cert.Spec

open Idealize.ShloMosaic Idealize.ShloMosaic.ValueIdx

/-- An `a × b` array of extended reals, indexed as the programs' rank-two buffers are. -/
abbrev Arr (a b : Nat) : Type := (⟨2, ![a, b]⟩ : Shape).Idx → EReal

/-- Row `q`, column `p` of `x · w1`. -/
def feat (x : Arr 10000 128) (w1 : Arr 128 32) (q : Fin 10000) (p : Fin 32) : EReal :=
  ∑ r : Fin 128, x (ix2 q r) * w1 (ix2 r p)

/-- Row `l`, column `p` of `max (adj · (x · w1)) 0`. -/
def hidden (x : Arr 10000 128) (adj : Arr 10000 10000) (w1 : Arr 128 32) (l : Fin 10000) (p : Fin 32) : EReal :=
  max (∑ q : Fin 10000, adj (ix2 l q) * feat x w1 q p) 0

/-- Row `l`, column `k` of `hidden · w`. -/
def proj (x : Arr 10000 128) (adj : Arr 10000 10000) (w1 : Arr 128 32) (w : Arr 32 32) (l : Fin 10000) (k : Fin 32) : EReal :=
  ∑ p : Fin 32, hidden x adj w1 l p * w (ix2 p k)

/-- Row `i`, column `k` of `adj · (hidden · w)`. -/
def enc (x : Arr 10000 128) (adj : Arr 10000 10000) (w1 : Arr 128 32) (w : Arr 32 32) (i : Fin 10000) (k : Fin 32) : EReal :=
  ∑ l : Fin 10000, adj (ix2 i l) * proj x adj w1 w l k

/-- Entry `(i, j)` of the Gram matrix of the rows of `enc w2`. -/
def gram (x : Arr 10000 128) (adj : Arr 10000 10000) (w1 : Arr 128 32) (w2 : Arr 32 32) (i j : Fin 10000) : EReal :=
  ∑ k : Fin 32, enc x adj w1 w2 i k * enc x adj w1 w2 j k

/-- `enc w` as an array. -/
def encArr (x : Arr 10000 128) (adj : Arr 10000 10000) (w1 : Arr 128 32) (w : Arr 32 32) : Arr 10000 32 :=
  fun j => enc x adj w1 w (j 0) (j 1)

/-- The Gram matrix as an array. -/
def gramArr (x : Arr 10000 128) (adj : Arr 10000 10000) (w1 : Arr 128 32) (w2 : Arr 32 32) : Arr 10000 10000 :=
  fun j => gram x adj w1 w2 (j 0) (j 1)

theorem encArr_ix2 (x : Arr 10000 128) (adj : Arr 10000 10000) (w1 : Arr 128 32) (w : Arr 32 32) (i : Fin 10000) (k : Fin 32) :
    encArr x adj w1 w (ix2 i k) = enc x adj w1 w i k := rfl

theorem gramArr_ix2 (x : Arr 10000 128) (adj : Arr 10000 10000) (w1 : Arr 128 32) (w2 : Arr 32 32) (i j : Fin 10000) :
    gramArr x adj w1 w2 (ix2 i j) = gram x adj w1 w2 i j := rfl

end Cert.Spec

end
-- ==== Proof.RegionValues.lean ====
import proofs.«181382_g32409823216073_cont_9to1_1175_25_alg».proof.Proof.EncRegion
import proofs.«181382_g32409823216073_cont_9to1_1175_25_alg».proof.Proof.GramRegion
import proofs.«181382_g32409823216073_cont_9to1_1175_25_alg».proof.Proof.Spec
import Idealize.ShloMosaic.Lib.Pipeline.Value
import Idealize.ShloMosaic.Lib.ValueIdx

/-
  What the second and third regions leave in their output arrays, as functions of the arrays they find.

  Each region's grid cuts its output into row blocks, one per point: point `t` multiplies row block `t` of its
  first operand by the whole of its second and writes the product to row block `t` of the output. A row `r` of the
  output lies in exactly the block of point `r / (rows per block)`, so the blocks cover the array and the array ends
  holding the full product: entry `(i, k)` is the sum over the contracted axis of the first operand's row `i` against
  the second operand. The input arrays are not written by the region and are found as they were.
-/

noncomputable section

namespace Cert.KernelIdeal.RegionValues

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer rectangle. -/
theorem zero_off : (![0, 0] : Fin 2 → Nat) = fun _ => 0 := funext fun a => by fin_cases a <;> rfl

/-! ## The second region: a row panel of the adjacency times the projection -/

/-- The adjacency copy the second region finds, its index and entry types spelt out. -/
abbrev encLhs (c : Dev nD) : S10000x10000.Idx → EReal := V c main_v1_1
/-- The projection the second region finds, likewise. -/
abbrev encRhs (c : Dev nD) : S10000x64.Idx → EReal := V c main_v2

/-- Entry `(i, k)` of the product the second region computes. -/
def encAt (c : Dev nD) (i : Fin 10000) (k : Fin 64) : EReal :=
  ∑ l : Fin 10000, encLhs V c (ix2 i l) * encRhs V c (ix2 l k)

/-- The product as an array. -/
def encArr (c : Dev nD) : S10000x64.Idx → EReal := fun j => encAt V c (j 0) (j 1)

/-- Where each window's block sits at point `t`: the panel and the output at row block `t`, the projection whole. -/
theorem enc_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The payload at row `a` of a block whose rows are rows `n · 1000 + a` of `A`, against the whole of `B`. -/
theorem enc_point
    (hpay : ∀ (v0 : Vec Ideal S1000x10000 .bf16) (v2 : Vec Ideal S10000x64 .bf16) (a : Fin 1000) (k : Fin 64),
      k1_pay1 (F := Ideal) v0 v2 (ix2 a k) = ∑ l : Fin 10000, v0 (ix2 a l) * v2 (ix2 l k))
    (x0 : Vec Ideal S1000x10000 .bf16) (x1 : Vec Ideal S10000x64 .bf16)
    (A : S10000x10000.Idx → EReal) (B : S10000x64.Idx → EReal) (a : Fin 1000) (k : Fin 64) (i : Fin 10000)
    (h0 : ∀ l : Fin 10000, x0 (ix2 a l) = A (ix2 i l)) (h1 : ∀ l : Fin 10000, x1 (ix2 l k) = B (ix2 l k)) :
    k1_pay1 (F := Ideal) x0 x1 (ix2 a k) = ∑ l : Fin 10000, A (ix2 i l) * B (ix2 l k) := by
  rw [hpay]
  exact Finset.sum_congr rfl fun l _ => by rw [h0 l, h1 l]

/-- Row `a` of the panel at point `t` is row `t · 1000 + a` of the adjacency. -/
theorem enc_panel_apply (c : Dev nD) (t : Fin cfg1.N) (a : Fin 1000) (l : Fin 10000) (i : Fin 10000)
    (hi : i.val = t.val * 1000 + a.val) :
    (EncRegion.blk (F := Ideal) V c 0 t : S1000x10000.Idx → EReal) (ix2 a l) = encLhs V c (ix2 i l) := by
  obtain ⟨e00, e01, -, -, -, -⟩ := enc_index t
  unfold EncRegion.blk
  rw [View.read_apply]
  show encLhs V c _ = encLhs V c _
  congr 1
  funext d
  apply Fin.ext
  match d with
  | ⟨0, _⟩ => show win1_0.index t (0 : Fin 2) * 1000 + 1 * a.val = i.val; rw [e00, hi]; omega
  | ⟨1, _⟩ => show win1_0.index t (1 : Fin 2) * 10000 + 1 * l.val = l.val; rw [e01]; omega

/-- The resident block at any point is the projection itself. -/
theorem enc_resident_apply (c : Dev nD) (t : Fin cfg1.N) (l : Fin 10000) (k : Fin 64) :
    (EncRegion.blk (F := Ideal) V c 1 t : S10000x64.Idx → EReal) (ix2 l k) = encRhs V c (ix2 l k) := by
  obtain ⟨-, -, e10, e11, -, -⟩ := enc_index t
  unfold EncRegion.blk
  rw [View.read_apply]
  show encRhs V c _ = encRhs V c _
  congr 1
  funext d
  apply Fin.ext
  match d with
  | ⟨0, _⟩ => show win1_1.index t (0 : Fin 2) * 10000 + 1 * l.val = l.val; rw [e10]; omega
  | ⟨1, _⟩ => show win1_1.index t (1 : Fin 2) * 64 + 1 * k.val = k.val; rw [e11]; omega

/-- What point `t` writes back is row block `t` of the product. -/
theorem enc_flushed
    (hpay : ∀ (v0 : Vec Ideal S1000x10000 .bf16) (v2 : Vec Ideal S10000x64 .bf16) (a : Fin 1000) (k : Fin 64),
      k1_pay1 (F := Ideal) v0 v2 (ix2 a k) = ∑ l : Fin 10000, v0 (ix2 a l) * v2 (ix2 l k))
    (c : Dev nD) (t : Fin cfg1.N) :
    (EncRegion.dat (F := Ideal) V c).flushed 2 t = ((cfg1.win 2).blk t).view.read (Elt Ideal) (encArr V c) := by
  show (cfg1.win 2).cut (grid1.coords t) ((EncRegion.dat (F := Ideal) V c).after 2 t) = _
  rw [EncRegion.after_2]
  unfold EncRegion.out
  rw [View.canon_unit_zero zero_off]
  simp only [View.ld_unit_zero (S := S1000x10000) zero_off, View.ld_unit_zero (S := S10000x64) zero_off]
  obtain ⟨-, -, -, -, e20, e21⟩ := enc_index t
  refine funext fun (y : S1000x64.Idx) => ?_
  obtain ⟨a, k, rfl⟩ : ∃ (a : Fin 1000) (k : Fin 64), y = ix2 a k := ⟨y 0, y 1, eq_ix2 y⟩
  have hN : cfg1.N = 10 := N_1
  have ht : t.val < 10 := by have := t.isLt; omega
  have hrow : t.val * 1000 + a.val < 10000 := by have := a.isLt; omega
  have hemb : ((cfg1.win 2).blk t).view.emb (ix2 a k) = (ix2 (⟨t.val * 1000 + a.val, hrow⟩ : Fin 10000) k : S10000x64.Idx) := by
    funext d
    apply Fin.ext
    match d with
    | ⟨0, _⟩ => show win1_2.index t (0 : Fin 2) * 1000 + 1 * a.val = t.val * 1000 + a.val; rw [e20]; omega
    | ⟨1, _⟩ => show win1_2.index t (1 : Fin 2) * 64 + 1 * k.val = k.val; rw [e21]; omega
  show k1_pay1 (F := Ideal) (EncRegion.blk (F := Ideal) V c 0 t) (EncRegion.blk (F := Ideal) V c 1 t) (ix2 a k)
      = encArr V c (((cfg1.win 2).blk t).view.emb (ix2 a k))
  rw [hemb]
  exact enc_point hpay _ _ (encLhs V c) (encRhs V c) a k ⟨t.val * 1000 + a.val, hrow⟩
    (fun l => enc_panel_apply V c t a l _ rfl) (fun l => enc_resident_apply V c t l k)

/-- An index of the output is in point `t`'s block iff each coordinate is in the block's range on its axis. -/
theorem enc_mem_blk (t : Fin cfg1.N) (i : S10000x64.Idx) :
    i ∈ ((cfg1.win 2).blk t).view.set ↔ ∀ a : Fin 2, win1_2.index t a * S1000x64.size a ≤ (i a).val
      ∧ (i a).val < win1_2.index t a * S1000x64.size a + S1000x64.size a := by
  show i ∈ ((View.whole main_v3).slice (win1_2.rect t)).set ↔ _
  rw [View.set_slice_whole, Rect.mem_set_unit]
  exact Iff.rfl

/-- Row `r` of the output is in the block of point `r / 1000`: the row blocks cover the array. -/
theorem enc_cover (i : S10000x64.Idx) :
    ∃ t : Fin cfg1.N, (cfg1.win 2).flush t = true ∧ i ∈ ((cfg1.win 2).blk t).view.set := by
  have hi0 : (i 0).val < 10000 := (i 0).isLt
  have hi1 : (i 1).val < 64 := (i 1).isLt
  have hN : cfg1.N = 10 := N_1
  obtain ⟨t, ht⟩ : ∃ t : Fin cfg1.N, t.val = (i 0).val / 1000 := ⟨⟨(i 0).val / 1000, by rw [hN]; omega⟩, rfl⟩
  obtain ⟨-, -, -, -, e20, e21⟩ := enc_index t
  refine ⟨t, flush1_2 t, ?_⟩
  rw [enc_mem_blk]
  intro a
  match a with
  | ⟨0, _⟩ =>
    show win1_2.index t (0 : Fin 2) * 1000 ≤ (i 0).val ∧ (i 0).val < win1_2.index t (0 : Fin 2) * 1000 + 1000
    rw [e20, ht]; omega
  | ⟨1, _⟩ =>
    show win1_2.index t (1 : Fin 2) * 64 ≤ (i 1).val ∧ (i 1).val < win1_2.index t (1 : Fin 2) * 64 + 64
    rw [e21]; omega

/-- The second region's output array ends holding the product. -/
theorem enc_final_arr
    (hpay : ∀ (v0 : Vec Ideal S1000x10000 .bf16) (v2 : Vec Ideal S10000x64 .bf16) (a : Fin 1000) (k : Fin 64),
      k1_pay1 (F := Ideal) v0 v2 (ix2 a k) = ∑ l : Fin 10000, v0 (ix2 a l) * v2 (ix2 l k))
    (c : Dev nD) : (EncRegion.dat (F := Ideal) V c).arrAt 2 cfg1.N = encArr V c :=
  (EncRegion.dat (F := Ideal) V c).arrAt_eq_of_cover 2 (encArr V c) (fun t _ => enc_flushed V hpay c t) enc_cover

/-- The same, entry by entry: entry `(i, k)` is row `i` of the adjacency copy against column `k` of the projection. -/
theorem enc_final
    (hpay : ∀ (v0 : Vec Ideal S1000x10000 .bf16) (v2 : Vec Ideal S10000x64 .bf16) (a : Fin 1000) (k : Fin 64),
      k1_pay1 (F := Ideal) v0 v2 (ix2 a k) = ∑ l : Fin 10000, v0 (ix2 a l) * v2 (ix2 l k))
    (c : Dev nD) (i : Fin 10000) (k : Fin 64) :
    ((EncRegion.dat (F := Ideal) V c).arrAt 2 cfg1.N : S10000x64.Idx → EReal) (ix2 i k)
      = ∑ l : Fin 10000, encLhs V c (ix2 i l) * encRhs V c (ix2 l k) := by
  rw [enc_final_arr V hpay c]
  rfl

/-- The second region leaves its two input arrays as it found them. -/
theorem enc_in_0 (c : Dev nD) : (EncRegion.dat (F := Ideal) V c).arrAt 0 cfg1.N = V c (Pipeline.arrRef spec1 0) :=
  ((EncRegion.dat (F := Ideal) V c).arrAt_in 0 rfl cfg1.N).trans (EncRegion.A_eq V c 0)
theorem enc_in_1 (c : Dev nD) : (EncRegion.dat (F := Ideal) V c).arrAt 1 cfg1.N = V c (Pipeline.arrRef spec1 1) :=
  ((EncRegion.dat (F := Ideal) V c).arrAt_in 1 rfl cfg1.N).trans (EncRegion.A_eq V c 1)

/-! ## The third region: a row panel of the encoding against all of its rows -/

/-- The encoding the third region finds (both of its operands), its index and entry types spelt out. -/
abbrev gramIn (c : Dev nD) : S10000x32.Idx → EReal := V c main_v4

/-- Entry `(i, j)` of the Gram matrix the third region computes: row `i` against row `j`. -/
def gramAt (c : Dev nD) (i j : Fin 10000) : EReal :=
  ∑ k : Fin 32, gramIn V c (ix2 i k) * gramIn V c (ix2 j k)

/-- The Gram matrix as an array. -/
def gramArr (c : Dev nD) : S10000x10000.Idx → EReal := fun p => gramAt V c (p 0) (p 1)

/-- Where each window's block sits at point `t`: the panel and the output at row block `t`, the second operand whole. -/
theorem gram_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The payload at row `a` of a block whose rows are rows `i` of `A`, against the rows of `B`. -/
theorem gram_point
    (hpay : ∀ (v0 : Vec Ideal S400x32 .f32) (v2 : Vec Ideal S10000x32 .f32) (a : Fin 400) (j : Fin 10000),
      k2_pay1 (F := Ideal) v0 v2 (ix2 a j) = ∑ k : Fin 32, v0 (ix2 a k) * v2 (ix2 j k))
    (x0 : Vec Ideal S400x32 .f32) (x1 : Vec Ideal S10000x32 .f32)
    (A B : S10000x32.Idx → EReal) (a : Fin 400) (j : Fin 10000) (i : Fin 10000)
    (h0 : ∀ k : Fin 32, x0 (ix2 a k) = A (ix2 i k)) (h1 : ∀ k : Fin 32, x1 (ix2 j k) = B (ix2 j k)) :
    k2_pay1 (F := Ideal) x0 x1 (ix2 a j) = ∑ k : Fin 32, A (ix2 i k) * B (ix2 j k) := by
  rw [hpay]
  exact Finset.sum_congr rfl fun k _ => by rw [h0 k, h1 k]

/-- Row `a` of the panel at point `t` is row `t · 400 + a` of the encoding. -/
theorem gram_panel_apply (c : Dev nD) (t : Fin cfg2.N) (a : Fin 400) (k : Fin 32) (i : Fin 10000)
    (hi : i.val = t.val * 400 + a.val) :
    (GramRegion.blk (F := Ideal) V c 0 t : S400x32.Idx → EReal) (ix2 a k) = gramIn V c (ix2 i k) := by
  obtain ⟨e00, e01, -, -, -, -⟩ := gram_index t
  unfold GramRegion.blk
  rw [View.read_apply]
  show gramIn V c _ = gramIn V c _
  congr 1
  funext d
  apply Fin.ext
  match d with
  | ⟨0, _⟩ => show win2_0.index t (0 : Fin 2) * 400 + 1 * a.val = i.val; rw [e00, hi]; omega
  | ⟨1, _⟩ => show win2_0.index t (1 : Fin 2) * 32 + 1 * k.val = k.val; rw [e01]; omega

/-- The resident block at any point is the encoding itself. -/
theorem gram_resident_apply (c : Dev nD) (t : Fin cfg2.N) (j : Fin 10000) (k : Fin 32) :
    (GramRegion.blk (F := Ideal) V c 1 t : S10000x32.Idx → EReal) (ix2 j k) = gramIn V c (ix2 j k) := by
  obtain ⟨-, -, e10, e11, -, -⟩ := gram_index t
  unfold GramRegion.blk
  rw [View.read_apply]
  show gramIn V c _ = gramIn V c _
  congr 1
  funext d
  apply Fin.ext
  match d with
  | ⟨0, _⟩ => show win2_1.index t (0 : Fin 2) * 10000 + 1 * j.val = j.val; rw [e10]; omega
  | ⟨1, _⟩ => show win2_1.index t (1 : Fin 2) * 32 + 1 * k.val = k.val; rw [e11]; omega

/-- What point `t` writes back is row block `t` of the Gram matrix. -/
theorem gram_flushed
    (hpay : ∀ (v0 : Vec Ideal S400x32 .f32) (v2 : Vec Ideal S10000x32 .f32) (a : Fin 400) (j : Fin 10000),
      k2_pay1 (F := Ideal) v0 v2 (ix2 a j) = ∑ k : Fin 32, v0 (ix2 a k) * v2 (ix2 j k))
    (c : Dev nD) (t : Fin cfg2.N) :
    (GramRegion.dat (F := Ideal) V c).flushed 2 t = ((cfg2.win 2).blk t).view.read (Elt Ideal) (gramArr V c) := by
  show (cfg2.win 2).cut (grid2.coords t) ((GramRegion.dat (F := Ideal) V c).after 2 t) = _
  rw [GramRegion.after_2]
  unfold GramRegion.out
  rw [View.canon_unit_zero zero_off]
  simp only [View.ld_unit_zero (S := S400x32) zero_off, View.ld_unit_zero (S := S10000x32) zero_off]
  obtain ⟨-, -, -, -, e20, e21⟩ := gram_index t
  refine funext fun (y : S400x10000.Idx) => ?_
  obtain ⟨a, j, rfl⟩ : ∃ (a : Fin 400) (j : Fin 10000), y = ix2 a j := ⟨y 0, y 1, eq_ix2 y⟩
  have hN : cfg2.N = 25 := N_2
  have ht : t.val < 25 := by have := t.isLt; omega
  have hrow : t.val * 400 + a.val < 10000 := by have := a.isLt; omega
  have hemb : ((cfg2.win 2).blk t).view.emb (ix2 a j) = (ix2 (⟨t.val * 400 + a.val, hrow⟩ : Fin 10000) j : S10000x10000.Idx) := by
    funext d
    apply Fin.ext
    match d with
    | ⟨0, _⟩ => show win2_2.index t (0 : Fin 2) * 400 + 1 * a.val = t.val * 400 + a.val; rw [e20]; omega
    | ⟨1, _⟩ => show win2_2.index t (1 : Fin 2) * 10000 + 1 * j.val = j.val; rw [e21]; omega
  show k2_pay1 (F := Ideal) (GramRegion.blk (F := Ideal) V c 0 t) (GramRegion.blk (F := Ideal) V c 1 t) (ix2 a j)
      = gramArr V c (((cfg2.win 2).blk t).view.emb (ix2 a j))
  rw [hemb]
  exact gram_point hpay _ _ (gramIn V c) (gramIn V c) a j ⟨t.val * 400 + a.val, hrow⟩
    (fun k => gram_panel_apply V c t a k _ rfl) (fun k => gram_resident_apply V c t j k)

/-- An index of the output is in point `t`'s block iff each coordinate is in the block's range on its axis. -/
theorem gram_mem_blk (t : Fin cfg2.N) (i : S10000x10000.Idx) :
    i ∈ ((cfg2.win 2).blk t).view.set ↔ ∀ a : Fin 2, win2_2.index t a * S400x10000.size a ≤ (i a).val
      ∧ (i a).val < win2_2.index t a * S400x10000.size a + S400x10000.size a := by
  show i ∈ ((View.whole main_v6).slice (win2_2.rect t)).set ↔ _
  rw [View.set_slice_whole, Rect.mem_set_unit]
  exact Iff.rfl

/-- Row `r` of the output is in the block of point `r / 400`: the row blocks cover the array. -/
theorem gram_cover (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, e20, e21⟩ := gram_index t
  refine ⟨t, flush2_2 t, ?_⟩
  rw [gram_mem_blk]
  intro a
  match a with
  | ⟨0, _⟩ =>
    show win2_2.index t (0 : Fin 2) * 400 ≤ (i 0).val ∧ (i 0).val < win2_2.index t (0 : Fin 2) * 400 + 400
    rw [e20, ht]; omega
  | ⟨1, _⟩ =>
    show win2_2.index t (1 : Fin 2) * 10000 ≤ (i 1).val ∧ (i 1).val < win2_2.index t (1 : Fin 2) * 10000 + 10000
    rw [e21]; omega

/-- The third region's output array ends holding the Gram matrix. -/
theorem gram_final_arr
    (hpay : ∀ (v0 : Vec Ideal S400x32 .f32) (v2 : Vec Ideal S10000x32 .f32) (a : Fin 400) (j : Fin 10000),
      k2_pay1 (F := Ideal) v0 v2 (ix2 a j) = ∑ k : Fin 32, v0 (ix2 a k) * v2 (ix2 j k))
    (c : Dev nD) : (GramRegion.dat (F := Ideal) V c).arrAt 2 cfg2.N = gramArr V c :=
  (GramRegion.dat (F := Ideal) V c).arrAt_eq_of_cover 2 (gramArr V c) (fun t _ => gram_flushed V hpay c t) gram_cover

/-- The same, entry by entry: entry `(i, j)` is row `i` of the encoding against row `j`. -/
theorem gram_final
    (hpay : ∀ (v0 : Vec Ideal S400x32 .f32) (v2 : Vec Ideal S10000x32 .f32) (a : Fin 400) (j : Fin 10000),
      k2_pay1 (F := Ideal) v0 v2 (ix2 a j) = ∑ k : Fin 32, v0 (ix2 a k) * v2 (ix2 j k))
    (c : Dev nD) (i j : Fin 10000) :
    ((GramRegion.dat (F := Ideal) V c).arrAt 2 cfg2.N : S10000x10000.Idx → EReal) (ix2 i j)
      = ∑ k : Fin 32, gramIn V c (ix2 i k) * gramIn V c (ix2 j k) := by
  rw [gram_final_arr V hpay c]
  rfl

/-- The third region leaves its two input windows' array as it found it. -/
theorem gram_in_0 (c : Dev nD) : (GramRegion.dat (F := Ideal) V c).arrAt 0 cfg2.N = V c (Pipeline.arrRef spec2 0) :=
  ((GramRegion.dat (F := Ideal) V c).arrAt_in 0 rfl cfg2.N).trans (GramRegion.A_eq V c 0)
theorem gram_in_1 (c : Dev nD) : (GramRegion.dat (F := Ideal) V c).arrAt 1 cfg2.N = V c (Pipeline.arrRef spec2 1) :=
  ((GramRegion.dat (F := Ideal) V c).arrAt_in 1 rfl cfg2.N).trans (GramRegion.A_eq V c 1)

end Cert.KernelIdeal.RegionValues

end
-- ==== Proof.FeatValues.lean ====
import proofs.«181382_g32409823216073_cont_9to1_1175_25_alg».proof.Proof.FeatData
import proofs.«181382_g32409823216073_cont_9to1_1175_25_alg».proof.Proof.Spec
import Idealize.ShloMosaic.Lib.Pipeline.Value
import Idealize.ShloMosaic.Lib.ValueIdx

/-
  What the first region leaves in its two output arrays, as functions of the arrays it finds.

  The grid cuts the adjacency and both outputs into 25 blocks of 400 rows; the features, the first weight and the
  two second weights side by side are whole arrays at every point. The scratch carries the projection
  `x · W1`, the same at every point. Point `t` writes to row block `t` of the first output the product
  `max (panel · (x · W1)) 0 · [W2 | W3]` and to row block `t` of the second output its panel unchanged. A row `r`
  lies in the block of point `r / 400`, so the blocks cover both outputs: the first ends holding, at `(i, k)`,
  the sum over `p` of `max (Σ_q adj(i, q) · (Σ_r x(q, r) · W1(r, p))) 0 · [W2 | W3](p, k)`, the second a copy of
  the adjacency. The four input arrays are not written and are found as they were.
-/

noncomputable section

namespace Cert.KernelIdeal.FeatValues

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer rectangle. -/
theorem zero_off : (![0, 0] : Fin 2 → Nat) = fun _ => 0 := funext fun a => by fin_cases a <;> rfl

/-! ## The arrays the region finds, their index and entry types spelt out -/

/-- The features. -/
abbrev featX (c : Dev nD) : S10000x128.Idx → EReal := V c main_arg0
/-- The first weight. -/
abbrev featW (c : Dev nD) : S128x32.Idx → EReal := V c main_arg2
/-- The two second weights side by side. -/
abbrev featC (c : Dev nD) : S32x64.Idx → EReal := V c main_v0
/-- The adjacency. -/
abbrev featAdj (c : Dev nD) : S10000x10000.Idx → EReal := V c main_arg1

/-! ## Where each window's block sits at a point -/

theorem feat_index_whole0 : ∀ t : Fin cfg0.N, win0_0.index t (0 : Fin 2) = 0 ∧ win0_0.index t (1 : Fin 2) = 0 :=
  (by decide +kernel : ∀ t : Fin grid0.N, _)
theorem feat_index_whole1 : ∀ t : Fin cfg0.N, win0_1.index t (0 : Fin 2) = 0 ∧ win0_1.index t (1 : Fin 2) = 0 :=
  (by decide +kernel : ∀ t : Fin grid0.N, _)
theorem feat_index_whole2 : ∀ t : Fin cfg0.N, win0_2.index t (0 : Fin 2) = 0 ∧ win0_2.index t (1 : Fin 2) = 0 :=
  (by decide +kernel : ∀ t : Fin grid0.N, _)
/-- The panel and the two outputs sit at row block `t`. -/
theorem feat_index_rows : ∀ t : Fin cfg0.N, win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The blocks read at an index -/

/-- The features' block at any point is the features. -/
theorem feat_x_apply (c : Dev nD) (t : Fin cfg0.N) (a : Fin 10000) (b : Fin 128) :
    (FeatRegion.blk (F := Ideal) V c 0 t : S10000x128.Idx → EReal) (ix2 a b) = featX V c (ix2 a b) := by
  obtain ⟨e0, e1⟩ := feat_index_whole0 t
  unfold FeatRegion.blk
  rw [View.read_apply]
  show featX V c _ = featX V c _
  congr 1
  funext d
  apply Fin.ext
  match d with
  | ⟨0, _⟩ => show win0_0.index t (0 : Fin 2) * 10000 + 1 * a.val = a.val; rw [e0]; omega
  | ⟨1, _⟩ => show win0_0.index t (1 : Fin 2) * 128 + 1 * b.val = b.val; rw [e1]; omega

/-- The first weight's block at any point is the first weight. -/
theorem feat_w_apply (c : Dev nD) (t : Fin cfg0.N) (a : Fin 128) (b : Fin 32) :
    (FeatRegion.blk (F := Ideal) V c 1 t : S128x32.Idx → EReal) (ix2 a b) = featW V c (ix2 a b) := by
  obtain ⟨e0, e1⟩ := feat_index_whole1 t
  unfold FeatRegion.blk
  rw [View.read_apply]
  show featW V c _ = featW V c _
  congr 1
  funext d
  apply Fin.ext
  match d with
  | ⟨0, _⟩ => show win0_1.index t (0 : Fin 2) * 128 + 1 * a.val = a.val; rw [e0]; omega
  | ⟨1, _⟩ => show win0_1.index t (1 : Fin 2) * 32 + 1 * b.val = b.val; rw [e1]; omega

/-- The second weights' block at any point is the second weights. -/
theorem feat_c_apply (c : Dev nD) (t : Fin cfg0.N) (a : Fin 32) (b : Fin 64) :
    (FeatRegion.blk (F := Ideal) V c 2 t : S32x64.Idx → EReal) (ix2 a b) = featC V c (ix2 a b) := by
  obtain ⟨e0, e1⟩ := feat_index_whole2 t
  unfold FeatRegion.blk
  rw [View.read_apply]
  show featC V c _ = featC V c _
  congr 1
  funext d
  apply Fin.ext
  match d with
  | ⟨0, _⟩ => show win0_2.index t (0 : Fin 2) * 32 + 1 * a.val = a.val; rw [e0]; omega
  | ⟨1, _⟩ => show win0_2.index t (1 : Fin 2) * 64 + 1 * b.val = b.val; rw [e1]; omega

/-- Row `a` of the panel at point `t` is row `t · 400 + a` of the adjacency. -/
theorem feat_panel_apply (c : Dev nD) (t : Fin cfg0.N) (a : Fin 400) (q : Fin 10000) (i : Fin 10000)
    (hi : i.val = t.val * 400 + a.val) :
    (FeatRegion.blk (F := Ideal) V c 3 t : S400x10000.Idx → EReal) (ix2 a q) = featAdj V c (ix2 i q) := by
  obtain ⟨e30, e31, -, -, -, -⟩ := feat_index_rows t
  unfold FeatRegion.blk
  rw [View.read_apply]
  show featAdj V c _ = featAdj V c _
  congr 1
  funext d
  apply Fin.ext
  match d with
  | ⟨0, _⟩ => show win0_3.index t (0 : Fin 2) * 400 + 1 * a.val = i.val; rw [e30, hi]; omega
  | ⟨1, _⟩ => show win0_3.index t (1 : Fin 2) * 10000 + 1 * q.val = q.val; rw [e31]; omega

/-! ## The input arrays are found as they were -/

theorem feat_in_0 (c : Dev nD) : (FeatRegion.dat (F := Ideal) V c).arrAt 0 cfg0.N = V c (Pipeline.arrRef spec0 0) :=
  ((FeatRegion.dat (F := Ideal) V c).arrAt_in 0 rfl cfg0.N).trans (FeatRegion.A_eq V c 0)
theorem feat_in_1 (c : Dev nD) : (FeatRegion.dat (F := Ideal) V c).arrAt 1 cfg0.N = V c (Pipeline.arrRef spec0 1) :=
  ((FeatRegion.dat (F := Ideal) V c).arrAt_in 1 rfl cfg0.N).trans (FeatRegion.A_eq V c 1)
theorem feat_in_2 (c : Dev nD) : (FeatRegion.dat (F := Ideal) V c).arrAt 2 cfg0.N = V c (Pipeline.arrRef spec0 2) :=
  ((FeatRegion.dat (F := Ideal) V c).arrAt_in 2 rfl cfg0.N).trans (FeatRegion.A_eq V c 2)
theorem feat_in_3 (c : Dev nD) : (FeatRegion.dat (F := Ideal) V c).arrAt 3 cfg0.N = V c (Pipeline.arrRef spec0 3) :=
  ((FeatRegion.dat (F := Ideal) V c).arrAt_in 3 rfl cfg0.N).trans (FeatRegion.A_eq V c 3)

/-! ## The second output: a copy of the adjacency -/

/-- What point `t` writes back to the second output is row block `t` of the adjacency. -/
theorem feat_flushed5
    (hpay2 : ∀ (v3 : Vec Ideal S400x10000 .f32) (j : S400x10000.Idx), k0_pay2 (F := Ideal) v3 j = v3 j)
    (c : Dev nD) (t : Fin cfg0.N) :
    (FeatRegion.dat (F := Ideal) V c).flushed 5 t = ((cfg0.win 5).blk t).view.read (Elt Ideal) (featAdj V c) := by
  show (cfg0.win 5).cut (grid0.coords t) ((FeatRegion.dat (F := Ideal) V c).after 5 t) = _
  rw [FeatRegion.after_5]
  unfold FeatRegion.out5
  rw [View.canon_unit_zero zero_off]
  simp only [View.ld_unit_zero (S := S400x10000) zero_off]
  obtain ⟨-, -, -, -, e50, e51⟩ := feat_index_rows t
  refine funext fun (y : S400x10000.Idx) => ?_
  obtain ⟨a, q, rfl⟩ : ∃ (a : Fin 400) (q : Fin 10000), y = ix2 a q := ⟨y 0, y 1, eq_ix2 y⟩
  have hN : cfg0.N = 25 := N_0
  have ht : t.val < 25 := by have := t.isLt; omega
  have hrow : t.val * 400 + a.val < 10000 := by have := a.isLt; omega
  have hemb : ((cfg0.win 5).blk t).view.emb (ix2 a q) = (ix2 (⟨t.val * 400 + a.val, hrow⟩ : Fin 10000) q : S10000x10000.Idx) := by
    funext d
    apply Fin.ext
    match d with
    | ⟨0, _⟩ => show win0_5.index t (0 : Fin 2) * 400 + 1 * a.val = t.val * 400 + a.val; rw [e50]; omega
    | ⟨1, _⟩ => show win0_5.index t (1 : Fin 2) * 10000 + 1 * q.val = q.val; rw [e51]; omega
  show k0_pay2 (F := Ideal) (FeatRegion.blk (F := Ideal) V c 3 t) (ix2 a q) = featAdj V c (((cfg0.win 5).blk t).view.emb (ix2 a q))
  rw [hemb, hpay2]
  exact feat_panel_apply V c t a q _ rfl

/-- An index of the second output is in point `t`'s block iff each coordinate is in the block's range on its axis. -/
theorem feat_mem_blk5 (t : Fin cfg0.N) (i : S10000x10000.Idx) :
    i ∈ ((cfg0.win 5).blk t).view.set ↔ ∀ a : Fin 2, win0_5.index t a * S400x10000.size a ≤ (i a).val
      ∧ (i a).val < win0_5.index t a * S400x10000.size a + S400x10000.size a := by
  show i ∈ ((View.whole main_v1_1).slice (win0_5.rect t)).set ↔ _
  rw [View.set_slice_whole, Rect.mem_set_unit]
  exact Iff.rfl

/-- Row `r` of the second output is in the block of point `r / 400`. -/
theorem feat_cover5 (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, e50, e51⟩ := feat_index_rows t
  refine ⟨t, flush0_5 t, ?_⟩
  rw [feat_mem_blk5]
  intro a
  match a with
  | ⟨0, _⟩ =>
    show win0_5.index t (0 : Fin 2) * 400 ≤ (i 0).val ∧ (i 0).val < win0_5.index t (0 : Fin 2) * 400 + 400
    rw [e50, ht]; omega
  | ⟨1, _⟩ =>
    show win0_5.index t (1 : Fin 2) * 10000 ≤ (i 1).val ∧ (i 1).val < win0_5.index t (1 : Fin 2) * 10000 + 10000
    rw [e51]; omega

/-- The second output ends holding the adjacency. -/
theorem feat_final5_arr
    (hpay2 : ∀ (v3 : Vec Ideal S400x10000 .f32) (j : S400x10000.Idx), k0_pay2 (F := Ideal) v3 j = v3 j)
    (c : Dev nD) : (FeatRegion.dat (F := Ideal) V c).arrAt 5 cfg0.N = featAdj V c :=
  (FeatRegion.dat (F := Ideal) V c).arrAt_eq_of_cover 5 (featAdj V c) (fun t _ => feat_flushed5 V hpay2 c t) feat_cover5

/-- The same, entry by entry. -/
theorem feat_final5
    (hpay2 : ∀ (v3 : Vec Ideal S400x10000 .f32) (j : S400x10000.Idx), k0_pay2 (F := Ideal) v3 j = v3 j)
    (c : Dev nD) (j : S10000x10000.Idx) :
    ((FeatRegion.dat (F := Ideal) V c).arrAt 5 cfg0.N : S10000x10000.Idx → EReal) j = featAdj V c j := by
  rw [feat_final5_arr V hpay2 c]

/-! ## The carried projection -/

/-- The scratch's contents from the first point on, at `(q, p)`: row `q` of the features against column `p` of the
    first weight. -/
theorem carried_apply
    (hpay1 : ∀ (v14 : Vec Ideal S10000x128 .f32) (v15 : Vec Ideal S128x32 .f32) (q : Fin 10000) (p : Fin 32),
      k0_pay1 (F := Ideal) v14 v15 (ix2 q p) = ∑ r : Fin 128, v14 (ix2 q r) * v15 (ix2 r p))
    (c : Dev nD) (q : Fin 10000) (p : Fin 32) :
    (FeatRegion.carried (F := Ideal) V c : S10000x32.Idx → EReal) (ix2 q p)
      = ∑ r : Fin 128, featX V c (ix2 q r) * featW V c (ix2 r p) := by
  unfold FeatRegion.carried FeatRegion.feat
  rw [View.canon_unit_zero zero_off]
  simp only [View.ld_unit_zero (S := S10000x128) zero_off, View.ld_unit_zero (S := S128x32) zero_off]
  rw [hpay1]
  exact Finset.sum_congr rfl fun r _ => by rw [feat_x_apply V c FeatRegion.first q r, feat_w_apply V c FeatRegion.first r p]

/-! ## The first output -/

/-- Entry `(i, k)` of the first output. -/
def hidAt (c : Dev nD) (i : Fin 10000) (k : Fin 64) : EReal :=
  ∑ p : Fin 32, max (∑ q : Fin 10000, featAdj V c (ix2 i q) * (∑ r : Fin 128, featX V c (ix2 q r) * featW V c (ix2 r p))) 0
    * featC V c (ix2 p k)

/-- The first output as an array. -/
def hidArr (c : Dev nD) : S10000x64.Idx → EReal := fun j => hidAt V c (j 0) (j 1)

/-- The payload at row `a` of a panel whose rows are rows `i` of `A`, against a scratch that reads `H` and second
    weights that read `C`. -/
theorem feat_point
    (hpay3 : ∀ (v3 : Vec Ideal S400x10000 .f32) (v6 : Vec Ideal S10000x32 .f32) (v10 : Vec Ideal S32x64 .f32) (a : Fin 400) (k : Fin 64),
      k0_pay3 (F := Ideal) v3 v6 v10 (ix2 a k)
        = ∑ p : Fin 32, max (∑ q : Fin 10000, v3 (ix2 a q) * v6 (ix2 q p)) 0 * v10 (ix2 p k))
    (x3 : Vec Ideal S400x10000 .f32) (h : Vec Ideal S10000x32 .f32) (x2 : Vec Ideal S32x64 .f32)
    (A : S10000x10000.Idx → EReal) (H : Fin 10000 → Fin 32 → EReal) (C : S32x64.Idx → EReal)
    (a : Fin 400) (k : Fin 64) (i : Fin 10000)
    (h3 : ∀ q : Fin 10000, x3 (ix2 a q) = A (ix2 i q)) (hh : ∀ (q : Fin 10000) (p : Fin 32), h (ix2 q p) = H q p)
    (h2 : ∀ p : Fin 32, x2 (ix2 p k) = C (ix2 p k)) :
    k0_pay3 (F := Ideal) x3 h x2 (ix2 a k) = ∑ p : Fin 32, max (∑ q : Fin 10000, A (ix2 i q) * H q p) 0 * C (ix2 p k) := by
  rw [hpay3]
  refine Finset.sum_congr rfl fun p _ => ?_
  have e : (∑ q : Fin 10000, x3 (ix2 a q) * h (ix2 q p)) = ∑ q : Fin 10000, A (ix2 i q) * H q p :=
    Finset.sum_congr rfl fun q _ => by rw [h3 q, hh q p]
  rw [e, h2 p]

/-- What point `t` writes back to the first output is row block `t` of `hidArr`. -/
theorem feat_flushed4
    (hpay1 : ∀ (v14 : Vec Ideal S10000x128 .f32) (v15 : Vec Ideal S128x32 .f32) (q : Fin 10000) (p : Fin 32),
      k0_pay1 (F := Ideal) v14 v15 (ix2 q p) = ∑ r : Fin 128, v14 (ix2 q r) * v15 (ix2 r p))
    (hpay3 : ∀ (v3 : Vec Ideal S400x10000 .f32) (v6 : Vec Ideal S10000x32 .f32) (v10 : Vec Ideal S32x64 .f32) (a : Fin 400) (k : Fin 64),
      k0_pay3 (F := Ideal) v3 v6 v10 (ix2 a k)
        = ∑ p : Fin 32, max (∑ q : Fin 10000, v3 (ix2 a q) * v6 (ix2 q p)) 0 * v10 (ix2 p k))
    (c : Dev nD) (t : Fin cfg0.N) :
    (FeatRegion.dat (F := Ideal) V c).flushed 4 t = ((cfg0.win 4).blk t).view.read (Elt Ideal) (hidArr V c) := by
  show (cfg0.win 4).cut (grid0.coords t) ((FeatRegion.dat (F := Ideal) V c).after 4 t) = _
  rw [FeatRegion.after_4]
  unfold FeatRegion.out4
  rw [View.canon_unit_zero zero_off]
  simp only [View.ld_unit_zero (S := S400x10000) zero_off, View.ld_unit_zero (S := S10000x32) zero_off,
    View.ld_unit_zero (S := S32x64) zero_off]
  obtain ⟨-, -, e40, e41, -, -⟩ := feat_index_rows t
  refine funext fun (y : S400x64.Idx) => ?_
  obtain ⟨a, k, rfl⟩ : ∃ (a : Fin 400) (k : Fin 64), y = ix2 a k := ⟨y 0, y 1, eq_ix2 y⟩
  have hN : cfg0.N = 25 := N_0
  have ht : t.val < 25 := by have := t.isLt; omega
  have hrow : t.val * 400 + a.val < 10000 := by have := a.isLt; omega
  have hemb : ((cfg0.win 4).blk t).view.emb (ix2 a k) = (ix2 (⟨t.val * 400 + a.val, hrow⟩ : Fin 10000) k : S10000x64.Idx) := by
    funext d
    apply Fin.ext
    match d with
    | ⟨0, _⟩ => show win0_4.index t (0 : Fin 2) * 400 + 1 * a.val = t.val * 400 + a.val; rw [e40]; omega
    | ⟨1, _⟩ => show win0_4.index t (1 : Fin 2) * 64 + 1 * k.val = k.val; rw [e41]; omega
  show k0_pay3 (F := Ideal) (FeatRegion.blk (F := Ideal) V c 3 t) (FeatRegion.carried (F := Ideal) V c)
      (FeatRegion.blk (F := Ideal) V c 2 t) (ix2 a k) = hidArr V c (((cfg0.win 4).blk t).view.emb (ix2 a k))
  rw [hemb]
  exact feat_point hpay3 _ _ _ (featAdj V c) (fun q p => ∑ r : Fin 128, featX V c (ix2 q r) * featW V c (ix2 r p)) (featC V c)
    a k ⟨t.val * 400 + a.val, hrow⟩ (fun q => feat_panel_apply V c t a q _ rfl) (fun q p => carried_apply V hpay1 c q p)
    (fun p => feat_c_apply V c t p k)

/-- An index of the first output is in point `t`'s block iff each coordinate is in the block's range on its axis. -/
theorem feat_mem_blk4 (t : Fin cfg0.N) (i : S10000x64.Idx) :
    i ∈ ((cfg0.win 4).blk t).view.set ↔ ∀ a : Fin 2, win0_4.index t a * S400x64.size a ≤ (i a).val
      ∧ (i a).val < win0_4.index t a * S400x64.size a + S400x64.size a := by
  show i ∈ ((View.whole main_v1_0).slice (win0_4.rect t)).set ↔ _
  rw [View.set_slice_whole, Rect.mem_set_unit]
  exact Iff.rfl

/-- Row `r` of the first output is in the block of point `r / 400`. -/
theorem feat_cover4 (i : S10000x64.Idx) :
    ∃ t : Fin cfg0.N, (cfg0.win 4).flush t = true ∧ i ∈ ((cfg0.win 4).blk t).view.set := by
  have hi0 : (i 0).val < 10000 := (i 0).isLt
  have hi1 : (i 1).val < 64 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, e40, e41, -, -⟩ := feat_index_rows t
  refine ⟨t, flush0_4 t, ?_⟩
  rw [feat_mem_blk4]
  intro a
  match a with
  | ⟨0, _⟩ =>
    show win0_4.index t (0 : Fin 2) * 400 ≤ (i 0).val ∧ (i 0).val < win0_4.index t (0 : Fin 2) * 400 + 400
    rw [e40, ht]; omega
  | ⟨1, _⟩ =>
    show win0_4.index t (1 : Fin 2) * 64 ≤ (i 1).val ∧ (i 1).val < win0_4.index t (1 : Fin 2) * 64 + 64
    rw [e41]; omega

/-- The first output ends holding `hidArr`. -/
theorem feat_final4_arr
    (hpay1 : ∀ (v14 : Vec Ideal S10000x128 .f32) (v15 : Vec Ideal S128x32 .f32) (q : Fin 10000) (p : Fin 32),
      k0_pay1 (F := Ideal) v14 v15 (ix2 q p) = ∑ r : Fin 128, v14 (ix2 q r) * v15 (ix2 r p))
    (hpay3 : ∀ (v3 : Vec Ideal S400x10000 .f32) (v6 : Vec Ideal S10000x32 .f32) (v10 : Vec Ideal S32x64 .f32) (a : Fin 400) (k : Fin 64),
      k0_pay3 (F := Ideal) v3 v6 v10 (ix2 a k)
        = ∑ p : Fin 32, max (∑ q : Fin 10000, v3 (ix2 a q) * v6 (ix2 q p)) 0 * v10 (ix2 p k))
    (c : Dev nD) : (FeatRegion.dat (F := Ideal) V c).arrAt 4 cfg0.N = hidArr V c :=
  (FeatRegion.dat (F := Ideal) V c).arrAt_eq_of_cover 4 (hidArr V c) (fun t _ => feat_flushed4 V hpay1 hpay3 c t) feat_cover4

/-- The same, entry by entry. -/
theorem feat_final4
    (hpay1 : ∀ (v14 : Vec Ideal S10000x128 .f32) (v15 : Vec Ideal S128x32 .f32) (q : Fin 10000) (p : Fin 32),
      k0_pay1 (F := Ideal) v14 v15 (ix2 q p) = ∑ r : Fin 128, v14 (ix2 q r) * v15 (ix2 r p))
    (hpay3 : ∀ (v3 : Vec Ideal S400x10000 .f32) (v6 : Vec Ideal S10000x32 .f32) (v10 : Vec Ideal S32x64 .f32) (a : Fin 400) (k : Fin 64),
      k0_pay3 (F := Ideal) v3 v6 v10 (ix2 a k)
        = ∑ p : Fin 32, max (∑ q : Fin 10000, v3 (ix2 a q) * v6 (ix2 q p)) 0 * v10 (ix2 p k))
    (c : Dev nD) (i : Fin 10000) (k : Fin 64) :
    ((FeatRegion.dat (F := Ideal) V c).arrAt 4 cfg0.N : S10000x64.Idx → EReal) (ix2 i k)
      = ∑ p : Fin 32, max (∑ q : Fin 10000, featAdj V c (ix2 i q) * (∑ r : Fin 128, featX V c (ix2 q r) * featW V c (ix2 r p))) 0
          * featC V c (ix2 p k) := by
  rw [feat_final4_arr V hpay1 hpay3 c]
  rfl

end Cert.KernelIdeal.FeatValues

end
-- ==== Proof.KernelMath.lean ====
import proofs.«181382_g32409823216073_cont_9to1_1175_25_alg».proof.Proof.Gen.KernelIdeal.Skeleton
import proofs.«181382_g32409823216073_cont_9to1_1175_25_alg».proof.Proof.Spec
import Idealize.ShloMosaic.PureOps.Ideal.Laws
import Idealize.ShloMosaic.Lib.ValueIdx
import Idealize.ShloMosaic.Lib.Pipeline.Value
import Idealize.ShloMosaic.Lib.ValueLayout

/-
  The kernel's arithmetic, read one element at a time over the extended reals.

  Each of the three regions stores values that are plain matrix products (one of them followed by a
  maximum with zero and a second product). Here every stored value is read at an index `ix2 a b` as the
  sum over its contracted axis, factors in the order the specification writes them; the layout
  operations around the regions (a concatenation of two weight matrices along the columns, the two
  column slices that undo it, a change of float format) are read at an index too.
-/

noncomputable section

namespace Cert.KernelMath

open Cert.KernelIdeal Cert.KernelIdeal.Gen Idealize.ShloMosaic Idealize.ShloMosaic.ValueIdx

/-! ## The five products, read at an index

For each matrix product the kernel forms, first the two operand indices at an output index and a
contraction position, then the product into a zero accumulator as the sum over the contracted axis. -/

/-! ### The operand indices of `dot_S1000x10000_S10000x64_S1000x64_1_0_0_1_n_n` -/

theorem d1000_lhs0 (i : S1000x64.Idx) (q : dot_S1000x10000_S10000x64_S1000x64_1_0_0_1_n_n.contr.Idx) : (dot_S1000x10000_S10000x64_S1000x64_1_0_0_1_n_n.lhsIdx i q 0).val = (i 0).val := by
  unfold DotDims.lhsIdx
  rw [dif_neg (show ¬(0 : Fin S1000x10000.rank) ∈ dot_S1000x10000_S10000x64_S1000x64_1_0_0_1_n_n.lhsBatch by decide), dif_pos (show (0 : Fin S1000x10000.rank) ∈ dot_S1000x10000_S10000x64_S1000x64_1_0_0_1_n_n.lhsNonContracting by decide)]
  rfl
theorem d1000_lhs1 (i : S1000x64.Idx) (q : dot_S1000x10000_S10000x64_S1000x64_1_0_0_1_n_n.contr.Idx) : (dot_S1000x10000_S10000x64_S1000x64_1_0_0_1_n_n.lhsIdx i q 1).val = (q ⟨0, by decide⟩).val :=
  dot_S1000x10000_S10000x64_S1000x64_1_0_0_1_n_n.lhsIdx_val_of_single rfl i q
theorem d1000_rhs0 (i : S1000x64.Idx) (q : dot_S1000x10000_S10000x64_S1000x64_1_0_0_1_n_n.contr.Idx) : (dot_S1000x10000_S10000x64_S1000x64_1_0_0_1_n_n.rhsIdx i q 0).val = (q ⟨0, by decide⟩).val :=
  dot_S1000x10000_S10000x64_S1000x64_1_0_0_1_n_n.rhsIdx_val_of_single rfl i q
theorem d1000_rhs1 (i : S1000x64.Idx) (q : dot_S1000x10000_S10000x64_S1000x64_1_0_0_1_n_n.contr.Idx) : (dot_S1000x10000_S10000x64_S1000x64_1_0_0_1_n_n.rhsIdx i q 1).val = (i 1).val := by
  unfold DotDims.rhsIdx
  rw [dif_neg (show ¬(1 : Fin S10000x64.rank) ∈ dot_S1000x10000_S10000x64_S1000x64_1_0_0_1_n_n.rhsBatch by decide), dif_pos (show (1 : Fin S10000x64.rank) ∈ dot_S1000x10000_S10000x64_S1000x64_1_0_0_1_n_n.rhsNonContracting by decide)]
  rfl

/-- The left operand's index at output `(a, k)` and contraction position `l` is `(a, l)`. -/
theorem d1000_lidx (a : Fin 1000) (k : Fin 64) (l : Fin 10000) :
    dot_S1000x10000_S10000x64_S1000x64_1_0_0_1_n_n.lhsIdx (ix2 a k) ((contrEquiv1 dot_S1000x10000_S10000x64_S1000x64_1_0_0_1_n_n 10000 rfl rfl).symm l) = ix2 a l :=
  funext fun b => Fin.ext (by
    match b with
    | ⟨0, _⟩ => exact d1000_lhs0 _ _
    | ⟨1, _⟩ => exact (d1000_lhs1 _ _).trans (contrEquiv1_symm_val dot_S1000x10000_S10000x64_S1000x64_1_0_0_1_n_n 10000 rfl rfl l))
/-- The right operand's index there is `(l, k)`. -/
theorem d1000_ridx (a : Fin 1000) (k : Fin 64) (l : Fin 10000) :
    dot_S1000x10000_S10000x64_S1000x64_1_0_0_1_n_n.rhsIdx (ix2 a k) ((contrEquiv1 dot_S1000x10000_S10000x64_S1000x64_1_0_0_1_n_n 10000 rfl rfl).symm l) = ix2 l k :=
  funext fun b => Fin.ext (by
    match b with
    | ⟨0, _⟩ => exact (d1000_rhs0 _ _).trans (contrEquiv1_symm_val dot_S1000x10000_S10000x64_S1000x64_1_0_0_1_n_n 10000 rfl rfl l)
    | ⟨1, _⟩ => exact d1000_rhs1 _ _)

/-- The product into a zero accumulator, read at `(a, k)`: the sum over the contracted axis. -/
theorem d1000_matmul0 {φ₁ φ₂ : FTy} (x : FVec Ideal S1000x10000 φ₁) (y : FVec Ideal S10000x64 φ₂) (a : Fin 1000) (k : Fin 64) :
    matmul (F := Ideal) dot_S1000x10000_S10000x64_S1000x64_1_0_0_1_n_n none x y (constant (F := Ideal) S1000x64 .f32 0x00000000#32) (ix2 a k)
      = ∑ l : Fin 10000, x (ix2 a l) * y (ix2 l k) := by
  refine (Ideal.matmul_constant_zero_apply dot_S1000x10000_S10000x64_S1000x64_1_0_0_1_n_n none x y (ix2 a k)).trans ?_
  rw [← Equiv.sum_comp (contrEquiv1 dot_S1000x10000_S10000x64_S1000x64_1_0_0_1_n_n 10000 rfl rfl).symm]
  refine Finset.sum_congr rfl fun l _ => ?_
  rw [d1000_lidx, d1000_ridx]

/-! ### The operand indices of `dot_S10000x128_S128x32_S10000x32_1_0_0_1_n_n` -/

theorem d128_lhs0 (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem d128_lhs1 (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
theorem d128_rhs0 (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
theorem d128_rhs1 (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The left operand's index at output `(a, k)` and contraction position `l` is `(a, l)`. -/
theorem d128_lidx (a : Fin 10000) (k : Fin 32) (l : Fin 128) :
    dot_S10000x128_S128x32_S10000x32_1_0_0_1_n_n.lhsIdx (ix2 a k) ((contrEquiv1 dot_S10000x128_S128x32_S10000x32_1_0_0_1_n_n 128 rfl rfl).symm l) = ix2 a l :=
  funext fun b => Fin.ext (by
    match b with
    | ⟨0, _⟩ => exact d128_lhs0 _ _
    | ⟨1, _⟩ => exact (d128_lhs1 _ _).trans (contrEquiv1_symm_val dot_S10000x128_S128x32_S10000x32_1_0_0_1_n_n 128 rfl rfl l))
/-- The right operand's index there is `(l, k)`. -/
theorem d128_ridx (a : Fin 10000) (k : Fin 32) (l : Fin 128) :
    dot_S10000x128_S128x32_S10000x32_1_0_0_1_n_n.rhsIdx (ix2 a k) ((contrEquiv1 dot_S10000x128_S128x32_S10000x32_1_0_0_1_n_n 128 rfl rfl).symm l) = ix2 l k :=
  funext fun b => Fin.ext (by
    match b with
    | ⟨0, _⟩ => exact (d128_rhs0 _ _).trans (contrEquiv1_symm_val dot_S10000x128_S128x32_S10000x32_1_0_0_1_n_n 128 rfl rfl l)
    | ⟨1, _⟩ => exact d128_rhs1 _ _)

/-- The product into a zero accumulator, read at `(a, k)`: the sum over the contracted axis. -/
theorem d128_matmul0 {φ₁ φ₂ : FTy} (x : FVec Ideal S10000x128 φ₁) (y : FVec Ideal S128x32 φ₂) (a : Fin 10000) (k : Fin 32) :
    matmul (F := Ideal) dot_S10000x128_S128x32_S10000x32_1_0_0_1_n_n none x y (constant (F := Ideal) S10000x32 .f32 0x00000000#32) (ix2 a k)
      = ∑ l : Fin 128, x (ix2 a l) * y (ix2 l k) := by
  refine (Ideal.matmul_constant_zero_apply dot_S10000x128_S128x32_S10000x32_1_0_0_1_n_n none x y (ix2 a k)).trans ?_
  rw [← Equiv.sum_comp (contrEquiv1 dot_S10000x128_S128x32_S10000x32_1_0_0_1_n_n 128 rfl rfl).symm]
  refine Finset.sum_congr rfl fun l _ => ?_
  rw [d128_lidx, d128_ridx]

/-! ### The operand indices of `dot_S400x32_S10000x32_S400x10000_1_1_0_0_n_n` -/

theorem dGram_lhs0 (i : S400x10000.Idx) (q : dot_S400x32_S10000x32_S400x10000_1_1_0_0_n_n.contr.Idx) : (dot_S400x32_S10000x32_S400x10000_1_1_0_0_n_n.lhsIdx i q 0).val = (i 0).val := by
  unfold DotDims.lhsIdx
  rw [dif_neg (show ¬(0 : Fin S400x32.rank) ∈ dot_S400x32_S10000x32_S400x10000_1_1_0_0_n_n.lhsBatch by decide), dif_pos (show (0 : Fin S400x32.rank) ∈ dot_S400x32_S10000x32_S400x10000_1_1_0_0_n_n.lhsNonContracting by decide)]
  rfl
theorem dGram_lhs1 (i : S400x10000.Idx) (q : dot_S400x32_S10000x32_S400x10000_1_1_0_0_n_n.contr.Idx) : (dot_S400x32_S10000x32_S400x10000_1_1_0_0_n_n.lhsIdx i q 1).val = (q ⟨0, by decide⟩).val :=
  dot_S400x32_S10000x32_S400x10000_1_1_0_0_n_n.lhsIdx_val_of_single rfl i q
theorem dGram_rhs1 (i : S400x10000.Idx) (q : dot_S400x32_S10000x32_S400x10000_1_1_0_0_n_n.contr.Idx) : (dot_S400x32_S10000x32_S400x10000_1_1_0_0_n_n.rhsIdx i q 1).val = (q ⟨0, by decide⟩).val :=
  dot_S400x32_S10000x32_S400x10000_1_1_0_0_n_n.rhsIdx_val_of_single rfl i q
theorem dGram_rhs0 (i : S400x10000.Idx) (q : dot_S400x32_S10000x32_S400x10000_1_1_0_0_n_n.contr.Idx) : (dot_S400x32_S10000x32_S400x10000_1_1_0_0_n_n.rhsIdx i q 0).val = (i 1).val := by
  unfold DotDims.rhsIdx
  rw [dif_neg (show ¬(0 : Fin S10000x32.rank) ∈ dot_S400x32_S10000x32_S400x10000_1_1_0_0_n_n.rhsBatch by decide), dif_pos (show (0 : Fin S10000x32.rank) ∈ dot_S400x32_S10000x32_S400x10000_1_1_0_0_n_n.rhsNonContracting by decide)]
  rfl

/-- The left operand's index at output `(a, k)` and contraction position `l` is `(a, l)`. -/
theorem dGram_lidx (a : Fin 400) (k : Fin 10000) (l : Fin 32) :
    dot_S400x32_S10000x32_S400x10000_1_1_0_0_n_n.lhsIdx (ix2 a k) ((contrEquiv1 dot_S400x32_S10000x32_S400x10000_1_1_0_0_n_n 32 rfl rfl).symm l) = ix2 a l :=
  funext fun b => Fin.ext (by
    match b with
    | ⟨0, _⟩ => exact dGram_lhs0 _ _
    | ⟨1, _⟩ => exact (dGram_lhs1 _ _).trans (contrEquiv1_symm_val dot_S400x32_S10000x32_S400x10000_1_1_0_0_n_n 32 rfl rfl l))
/-- The right operand's index there is `(k, l)`. -/
theorem dGram_ridx (a : Fin 400) (k : Fin 10000) (l : Fin 32) :
    dot_S400x32_S10000x32_S400x10000_1_1_0_0_n_n.rhsIdx (ix2 a k) ((contrEquiv1 dot_S400x32_S10000x32_S400x10000_1_1_0_0_n_n 32 rfl rfl).symm l) = ix2 k l :=
  funext fun b => Fin.ext (by
    match b with
    | ⟨1, _⟩ => exact (dGram_rhs1 _ _).trans (contrEquiv1_symm_val dot_S400x32_S10000x32_S400x10000_1_1_0_0_n_n 32 rfl rfl l)
    | ⟨0, _⟩ => exact dGram_rhs0 _ _)

/-- The product into a zero accumulator, read at `(a, k)`: the sum over the contracted axis. -/
theorem dGram_matmul0 {φ₁ φ₂ : FTy} (x : FVec Ideal S400x32 φ₁) (y : FVec Ideal S10000x32 φ₂) (a : Fin 400) (k : Fin 10000) :
    matmul (F := Ideal) dot_S400x32_S10000x32_S400x10000_1_1_0_0_n_n none x y (constant (F := Ideal) S400x10000 .f32 0x00000000#32) (ix2 a k)
      = ∑ l : Fin 32, x (ix2 a l) * y (ix2 k l) := by
  refine (Ideal.matmul_constant_zero_apply dot_S400x32_S10000x32_S400x10000_1_1_0_0_n_n none x y (ix2 a k)).trans ?_
  rw [← Equiv.sum_comp (contrEquiv1 dot_S400x32_S10000x32_S400x10000_1_1_0_0_n_n 32 rfl rfl).symm]
  refine Finset.sum_congr rfl fun l _ => ?_
  rw [dGram_lidx, dGram_ridx]

/-! ### The operand indices of `dot_S400x10000_S10000x32_S400x32_1_0_0_1_n_n` -/

theorem dAdj_lhs0 (i : S400x32.Idx) (q : dot_S400x10000_S10000x32_S400x32_1_0_0_1_n_n.contr.Idx) : (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem dAdj_lhs1 (i : S400x32.Idx) (q : dot_S400x10000_S10000x32_S400x32_1_0_0_1_n_n.contr.Idx) : (dot_S400x10000_S10000x32_S400x32_1_0_0_1_n_n.lhsIdx i q 1).val = (q ⟨0, by decide⟩).val :=
  dot_S400x10000_S10000x32_S400x32_1_0_0_1_n_n.lhsIdx_val_of_single rfl i q
theorem dAdj_rhs0 (i : S400x32.Idx) (q : dot_S400x10000_S10000x32_S400x32_1_0_0_1_n_n.contr.Idx) : (dot_S400x10000_S10000x32_S400x32_1_0_0_1_n_n.rhsIdx i q 0).val = (q ⟨0, by decide⟩).val :=
  dot_S400x10000_S10000x32_S400x32_1_0_0_1_n_n.rhsIdx_val_of_single rfl i q
theorem dAdj_rhs1 (i : S400x32.Idx) (q : dot_S400x10000_S10000x32_S400x32_1_0_0_1_n_n.contr.Idx) : (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The left operand's index at output `(a, k)` and contraction position `l` is `(a, l)`. -/
theorem dAdj_lidx (a : Fin 400) (k : Fin 32) (l : Fin 10000) :
    dot_S400x10000_S10000x32_S400x32_1_0_0_1_n_n.lhsIdx (ix2 a k) ((contrEquiv1 dot_S400x10000_S10000x32_S400x32_1_0_0_1_n_n 10000 rfl rfl).symm l) = ix2 a l :=
  funext fun b => Fin.ext (by
    match b with
    | ⟨0, _⟩ => exact dAdj_lhs0 _ _
    | ⟨1, _⟩ => exact (dAdj_lhs1 _ _).trans (contrEquiv1_symm_val dot_S400x10000_S10000x32_S400x32_1_0_0_1_n_n 10000 rfl rfl l))
/-- The right operand's index there is `(l, k)`. -/
theorem dAdj_ridx (a : Fin 400) (k : Fin 32) (l : Fin 10000) :
    dot_S400x10000_S10000x32_S400x32_1_0_0_1_n_n.rhsIdx (ix2 a k) ((contrEquiv1 dot_S400x10000_S10000x32_S400x32_1_0_0_1_n_n 10000 rfl rfl).symm l) = ix2 l k :=
  funext fun b => Fin.ext (by
    match b with
    | ⟨0, _⟩ => exact (dAdj_rhs0 _ _).trans (contrEquiv1_symm_val dot_S400x10000_S10000x32_S400x32_1_0_0_1_n_n 10000 rfl rfl l)
    | ⟨1, _⟩ => exact dAdj_rhs1 _ _)

/-- The product into a zero accumulator, read at `(a, k)`: the sum over the contracted axis. -/
theorem dAdj_matmul0 {φ₁ φ₂ : FTy} (x : FVec Ideal S400x10000 φ₁) (y : FVec Ideal S10000x32 φ₂) (a : Fin 400) (k : Fin 32) :
    matmul (F := Ideal) dot_S400x10000_S10000x32_S400x32_1_0_0_1_n_n none x y (constant (F := Ideal) S400x32 .f32 0x00000000#32) (ix2 a k)
      = ∑ l : Fin 10000, x (ix2 a l) * y (ix2 l k) := by
  refine (Ideal.matmul_constant_zero_apply dot_S400x10000_S10000x32_S400x32_1_0_0_1_n_n none x y (ix2 a k)).trans ?_
  rw [← Equiv.sum_comp (contrEquiv1 dot_S400x10000_S10000x32_S400x32_1_0_0_1_n_n 10000 rfl rfl).symm]
  refine Finset.sum_congr rfl fun l _ => ?_
  rw [dAdj_lidx, dAdj_ridx]

/-! ### The operand indices of `dot_S400x32_S32x64_S400x64_1_0_0_1_n_n` -/

theorem dW_lhs0 (i : S400x64.Idx) (q : dot_S400x32_S32x64_S400x64_1_0_0_1_n_n.contr.Idx) : (dot_S400x32_S32x64_S400x64_1_0_0_1_n_n.lhsIdx i q 0).val = (i 0).val := by
  unfold DotDims.lhsIdx
  rw [dif_neg (show ¬(0 : Fin S400x32.rank) ∈ dot_S400x32_S32x64_S400x64_1_0_0_1_n_n.lhsBatch by decide), dif_pos (show (0 : Fin S400x32.rank) ∈ dot_S400x32_S32x64_S400x64_1_0_0_1_n_n.lhsNonContracting by decide)]
  rfl
theorem dW_lhs1 (i : S400x64.Idx) (q : dot_S400x32_S32x64_S400x64_1_0_0_1_n_n.contr.Idx) : (dot_S400x32_S32x64_S400x64_1_0_0_1_n_n.lhsIdx i q 1).val = (q ⟨0, by decide⟩).val :=
  dot_S400x32_S32x64_S400x64_1_0_0_1_n_n.lhsIdx_val_of_single rfl i q
theorem dW_rhs0 (i : S400x64.Idx) (q : dot_S400x32_S32x64_S400x64_1_0_0_1_n_n.contr.Idx) : (dot_S400x32_S32x64_S400x64_1_0_0_1_n_n.rhsIdx i q 0).val = (q ⟨0, by decide⟩).val :=
  dot_S400x32_S32x64_S400x64_1_0_0_1_n_n.rhsIdx_val_of_single rfl i q
theorem dW_rhs1 (i : S400x64.Idx) (q : dot_S400x32_S32x64_S400x64_1_0_0_1_n_n.contr.Idx) : (dot_S400x32_S32x64_S400x64_1_0_0_1_n_n.rhsIdx i q 1).val = (i 1).val := by
  unfold DotDims.rhsIdx
  rw [dif_neg (show ¬(1 : Fin S32x64.rank) ∈ dot_S400x32_S32x64_S400x64_1_0_0_1_n_n.rhsBatch by decide), dif_pos (show (1 : Fin S32x64.rank) ∈ dot_S400x32_S32x64_S400x64_1_0_0_1_n_n.rhsNonContracting by decide)]
  rfl

/-- The left operand's index at output `(a, k)` and contraction position `l` is `(a, l)`. -/
theorem dW_lidx (a : Fin 400) (k : Fin 64) (l : Fin 32) :
    dot_S400x32_S32x64_S400x64_1_0_0_1_n_n.lhsIdx (ix2 a k) ((contrEquiv1 dot_S400x32_S32x64_S400x64_1_0_0_1_n_n 32 rfl rfl).symm l) = ix2 a l :=
  funext fun b => Fin.ext (by
    match b with
    | ⟨0, _⟩ => exact dW_lhs0 _ _
    | ⟨1, _⟩ => exact (dW_lhs1 _ _).trans (contrEquiv1_symm_val dot_S400x32_S32x64_S400x64_1_0_0_1_n_n 32 rfl rfl l))
/-- The right operand's index there is `(l, k)`. -/
theorem dW_ridx (a : Fin 400) (k : Fin 64) (l : Fin 32) :
    dot_S400x32_S32x64_S400x64_1_0_0_1_n_n.rhsIdx (ix2 a k) ((contrEquiv1 dot_S400x32_S32x64_S400x64_1_0_0_1_n_n 32 rfl rfl).symm l) = ix2 l k :=
  funext fun b => Fin.ext (by
    match b with
    | ⟨0, _⟩ => exact (dW_rhs0 _ _).trans (contrEquiv1_symm_val dot_S400x32_S32x64_S400x64_1_0_0_1_n_n 32 rfl rfl l)
    | ⟨1, _⟩ => exact dW_rhs1 _ _)

/-- The product into a zero accumulator, read at `(a, k)`: the sum over the contracted axis. -/
theorem dW_matmul0 {φ₁ φ₂ : FTy} (x : FVec Ideal S400x32 φ₁) (y : FVec Ideal S32x64 φ₂) (a : Fin 400) (k : Fin 64) :
    matmul (F := Ideal) dot_S400x32_S32x64_S400x64_1_0_0_1_n_n none x y (constant (F := Ideal) S400x64 .f32 0x00000000#32) (ix2 a k)
      = ∑ l : Fin 32, x (ix2 a l) * y (ix2 l k) := by
  refine (Ideal.matmul_constant_zero_apply dot_S400x32_S32x64_S400x64_1_0_0_1_n_n none x y (ix2 a k)).trans ?_
  rw [← Equiv.sum_comp (contrEquiv1 dot_S400x32_S32x64_S400x64_1_0_0_1_n_n 32 rfl rfl).symm]
  refine Finset.sum_congr rfl fun l _ => ?_
  rw [dW_lidx, dW_ridx]

/-! ## The stored values of the three regions -/

/-- Region 1 stores the product of its two operands: entry `(a, k)` is the sum over `l` of
    `v0 (a, l) * v2 (l, k)`. -/
theorem k1_pay1_apply (v0 : Vec Ideal S1000x10000 .bf16) (v2 : Vec Ideal S10000x64 .bf16) (a : Fin 1000) (k : Fin 64) :
    k1_pay1 (F := Ideal) v0 v2 (ix2 a k) = ∑ l : Fin 10000, v0 (ix2 a l) * v2 (ix2 l k) := by
  unfold k1_pay1
  simp only [shapeCast_self]
  exact d1000_matmul0 (φ₁ := .bf16) (φ₂ := .bf16) v0 v2 a k

/-- Region 0's first stored value is `x · w1`: entry `(q, p)` is the sum over `r` of
    `v14 (q, r) * v15 (r, p)`. -/
theorem k0_pay1_apply (v14 : Vec Ideal S10000x128 .f32) (v15 : Vec Ideal S128x32 .f32) (q : Fin 10000) (p : Fin 32) :
    k0_pay1 (F := Ideal) v14 v15 (ix2 q p) = ∑ r : Fin 128, v14 (ix2 q r) * v15 (ix2 r p) := by
  unfold k0_pay1
  simp only [shapeCast_self]
  exact d128_matmul0 (φ₁ := .f32) (φ₂ := .f32) v14 v15 q p

/-- Region 2 stores the product of its first operand with the transpose of its second (both operands'
    last axes are contracted): entry `(a, j)` is the sum over `k` of `v0 (a, k) * v2 (j, k)`. -/
theorem k2_pay1_apply (v0 : Vec Ideal S400x32 .f32) (v2 : Vec Ideal S10000x32 .f32) (a : Fin 400) (j : Fin 10000) :
    k2_pay1 (F := Ideal) v0 v2 (ix2 a j) = ∑ k : Fin 32, v0 (ix2 a k) * v2 (ix2 j k) := by
  unfold k2_pay1
  simp only [shapeCast_self]
  exact dGram_matmul0 (φ₁ := .f32) (φ₂ := .f32) v0 v2 a j

/-- Region 0's last stored value: the rows of `v3 · v6`, each entry replaced by its maximum with zero,
    times `v10`. The zero is the extended real the word `0x00000000` encodes (`Ideal.ofBits_zero_f32`). -/
theorem k0_pay3_apply (v3 : Vec Ideal S400x10000 .f32) (v6 : Vec Ideal S10000x32 .f32) (v10 : Vec Ideal S32x64 .f32)
    (a : Fin 400) (k : Fin 64) :
    k0_pay3 (F := Ideal) v3 v6 v10 (ix2 a k)
      = ∑ p : Fin 32, max (∑ q : Fin 10000, v3 (ix2 a q) * v6 (ix2 q p)) 0 * v10 (ix2 p k) := by
  unfold k0_pay3
  simp only [shapeCast_self]
  refine (dW_matmul0 (φ₁ := .f32) (φ₂ := .f32) _ v10 a k).trans ?_
  refine Finset.sum_congr rfl fun p _ => ?_
  refine congrArg (· * v10 (ix2 p k)) ?_
  refine (maximumf_apply _ _ (ix2 a p)).trans ?_
  rw [dAdj_matmul0 (φ₁ := .f32) (φ₂ := .f32) v3 v6 a p]
  exact congrArg (max _) Ideal.ofBits_zero_f32

/-- Region 0's middle stored value is its operand in the narrower float format: on the extended reals
    a change of format is the identity. -/
theorem k0_pay2_apply (v3 : Vec Ideal S400x10000 .f32) (j : S400x10000.Idx) :
    k0_pay2 (F := Ideal) v3 j = v3 j := rfl

/-! ### The layout operations around the regions, read at an index -/

/-- The two weight matrices side by side: the left half of the columns reads the first … -/
theorem concat_left {α : Type} (a b : S32x32.Idx → α) (h : Shape.Concatenates [S32x32, S32x32] S32x64 1)
    (p k : Fin 32) (hk : k.val < 64) :
    concatenate S32x64 1 [⟨S32x32, a⟩, ⟨S32x32, b⟩] h (ix2 p ⟨k.val, hk⟩) = a (ix2 p k) :=
  concatenate_pair_apply_left (1 : Fin S32x64.rank) a b h (ix2 p ⟨k.val, hk⟩) rfl (ix2 p k)
    (fun c => match c with | ⟨0, _⟩ => rfl | ⟨1, _⟩ => rfl)

/-- … and the right half, 32 columns on, reads the second. -/
theorem concat_right {α : Type} (a b : S32x32.Idx → α) (h : Shape.Concatenates [S32x32, S32x32] S32x64 1)
    (p k : Fin 32) (hk : 32 + k.val < 64) :
    concatenate S32x64 1 [⟨S32x32, a⟩, ⟨S32x32, b⟩] h (ix2 p ⟨32 + k.val, hk⟩) = b (ix2 p k) :=
  concatenate_pair_apply_right (1 : Fin S32x64.rank) a b h (ix2 p ⟨32 + k.val, hk⟩) rfl rfl (ix2 p k)
    (fun c hc => match c, hc with | ⟨0, _⟩, _ => rfl | ⟨1, _⟩, hc => absurd rfl hc)
    (Nat.add_comm k.val 32)

/-- The slice of the first 32 columns reads the array at the same row and column … -/
theorem slice_lo {α : Type} (v : S10000x64.Idx → α) (h : S10000x64.Slices ![0, 0] S10000x32)
    (i : Fin 10000) (k : Fin 32) (hk : k.val < 64) :
    extractStridedSlice S10000x32 ![0, 0] v h (ix2 i k) = v (ix2 i ⟨k.val, hk⟩) :=
  extractStridedSlice_apply ![0, 0] v h (ix2 i k) (ix2 i ⟨k.val, hk⟩)
    (fun c => match c with | ⟨0, _⟩ => (Nat.zero_add _).symm | ⟨1, _⟩ => (Nat.zero_add _).symm)

/-- … and the slice of the last 32 columns reads it 32 columns on. -/
theorem slice_hi {α : Type} (v : S10000x64.Idx → α) (h : S10000x64.Slices ![0, 32] S10000x32)
    (i : Fin 10000) (k : Fin 32) (hk : 32 + k.val < 64) :
    extractStridedSlice S10000x32 ![0, 32] v h (ix2 i k) = v (ix2 i ⟨32 + k.val, hk⟩) :=
  extractStridedSlice_apply ![0, 32] v h (ix2 i k) (ix2 i ⟨32 + k.val, hk⟩)
    (fun c => match c with | ⟨0, _⟩ => (Nat.zero_add _).symm | ⟨1, _⟩ => rfl)

/-- A change to the narrower float format of a whole array is the identity on the extended reals. -/
theorem truncf_whole (v : FVec Ideal S10000x64 .f32) (h : FTy.bits .bf16 < FTy.bits .f32) (j : S10000x64.Idx) :
    (truncf (F := Ideal) .bf16 v h) j = v j := rfl

end Cert.KernelMath

end
-- ==== Proof.KernelValue.lean ====
import proofs.«181382_g32409823216073_cont_9to1_1175_25_alg».proof.Proof.Run
import proofs.«181382_g32409823216073_cont_9to1_1175_25_alg».proof.Proof.RegionValues
import proofs.«181382_g32409823216073_cont_9to1_1175_25_alg».proof.Proof.FeatValues
import proofs.«181382_g32409823216073_cont_9to1_1175_25_alg».proof.Proof.KernelMath
import proofs.«181382_g32409823216073_cont_9to1_1175_25_alg».proof.Proof.Spec

/-
  The kernel's three results as functions of its five arguments.

  The run is a chain: the two second weights are laid side by side as one [32, 64] matrix `C`; the first region
  leaves `H = max (adj · (x · W1)) 0 · C` (a [10000, 64] array whose left 32 columns are the projection by the first of
  the two weights and whose right 32 columns the projection by the second) and a copy of the adjacency; `H` is
  narrowed, which changes nothing on the extended reals; the second region leaves `adj · H`, whose left and right
  halves are the two encodings; they are cut out as two [10000, 32] arrays; the third region leaves the products of
  the rows of the first encoding with one another. Column `k` of a left half reads the first weight's column `k`,
  column `32 + k` of the whole reads the second weight's column `k`; with that, each stage is, entry by entry, the
  sum the specification names, and the three results are the specification's arrays.
-/

noncomputable section

namespace Cert.KernelIdeal.KernelValue

open Cert.KernelIdeal Cert.KernelIdeal.Gen Idealize.ShloMosaic Idealize.ShloMosaic.ValueIdx
open Idealize.ShloMosaic.TcCoe Idealize.SL.Sem
open Idealize.ShloMosaic.Pipeline (Dat)
open Cert.KernelMath

variable (m : (ℓ : Loc nD τ sig) → Buf (Elt Ideal) ℓ)

/-! ## The arguments as launched, their index and entry types spelt out -/

/-- The features. -/
abbrev argX (c : Dev nD) : S10000x128.Idx → EReal := m ((c : Thread nD τ).loc main_arg0)
/-- The adjacency. -/
abbrev argAdj (c : Dev nD) : S10000x10000.Idx → EReal := m ((c : Thread nD τ).loc main_arg1)
/-- The first weight. -/
abbrev argW1 (c : Dev nD) : S128x32.Idx → EReal := m ((c : Thread nD τ).loc main_arg2)
/-- The first of the two second weights. -/
abbrev argW2 (c : Dev nD) : S32x32.Idx → EReal := m ((c : Thread nD τ).loc main_arg3)
/-- The second of them. -/
abbrev argW3 (c : Dev nD) : S32x32.Idx → EReal := m ((c : Thread nD τ).loc main_arg4)

/-! ## Before the first region: the arguments, and the two second weights side by side -/

theorem featX_eq (c : Dev nD) : FeatValues.featX (Run.V1 m) c = argX m c :=
  StableHlo.after_of_writes_sub hostOps0 _ hostOps0_writes (by decide)
theorem featAdj_eq (c : Dev nD) : FeatValues.featAdj (Run.V1 m) c = argAdj m c :=
  StableHlo.after_of_writes_sub hostOps0 _ hostOps0_writes (by decide)
theorem featW_eq (c : Dev nD) : FeatValues.featW (Run.V1 m) c = argW1 m c :=
  StableHlo.after_of_writes_sub hostOps0 _ hostOps0_writes (by decide)

/-- The [32, 64] matrix the first region is given is the two second weights side by side. -/
theorem featC_eq (c : Dev nD) :
    FeatValues.featC (Run.V1 m) c
      = concatenate S32x64 1 [⟨S32x32, argW2 m c⟩, ⟨S32x32, argW3 m c⟩] concatenates_S32x32_S32x32_S32x64_d1 := by
  show StableHlo.after hostOps0 (Run.W0 m c) (Proc.devRef .tc main_v0) = _
  after_results

/-- Its column `k` is the first weight's column `k` … -/
theorem featC_lo (c : Dev nD) (p k : Fin 32) (hk : k.val < 64) :
    FeatValues.featC (Run.V1 m) c (ix2 p ⟨k.val, hk⟩) = argW2 m c (ix2 p k) := by
  rw [featC_eq]
  exact concat_left _ _ _ p k hk
/-- … and its column `32 + k` the second weight's column `k`. -/
theorem featC_hi (c : Dev nD) (p k : Fin 32) (hk : 32 + k.val < 64) :
    FeatValues.featC (Run.V1 m) c (ix2 p ⟨32 + k.val, hk⟩) = argW3 m c (ix2 p k) := by
  rw [featC_eq]
  exact concat_right _ _ _ p k hk

/-! ## After the first region -/

/-- The first region's second output: the adjacency, copied. -/
theorem adjCopy_eq (c : Dev nD) : (Run.W2 m c (Proc.devRef .tc main_v1_1) : S10000x10000.Idx → EReal) = argAdj m c :=
  (Run.W2_arr m c 5).trans ((FeatValues.feat_final5_arr (Run.V1 m) k0_pay2_apply c).trans (featAdj_eq m c))

/-- The first region's first output, `H`. -/
abbrev hid (c : Dev nD) : S10000x64.Idx → EReal := Run.W2 m c (Proc.devRef .tc main_v1_0)

/-- Column `k` of `H` is the projection by the first of the two second weights … -/
theorem hid_lo (c : Dev nD) (l : Fin 10000) (k : Fin 32) (hk : k.val < 64) :
    hid m c (ix2 l ⟨k.val, hk⟩) = Spec.proj (argX m c) (argAdj m c) (argW1 m c) (argW2 m c) l k := by
  refine ((congrFun (Run.W2_arr m c 4) _).trans
    (FeatValues.feat_final4 (Run.V1 m) k0_pay1_apply k0_pay3_apply c l ⟨k.val, hk⟩)).trans ?_
  show (_ : EReal) = _
  unfold Spec.proj Spec.hidden Spec.feat
  refine Finset.sum_congr rfl fun p _ => ?_
  rw [featC_lo m c p k hk, featAdj_eq, featX_eq, featW_eq]
/-- … and column `32 + k` the projection by the second. -/
theorem hid_hi (c : Dev nD) (l : Fin 10000) (k : Fin 32) (hk : 32 + k.val < 64) :
    hid m c (ix2 l ⟨32 + k.val, hk⟩) = Spec.proj (argX m c) (argAdj m c) (argW1 m c) (argW3 m c) l k := by
  refine ((congrFun (Run.W2_arr m c 4) _).trans
    (FeatValues.feat_final4 (Run.V1 m) k0_pay1_apply k0_pay3_apply c l ⟨32 + k.val, hk⟩)).trans ?_
  show (_ : EReal) = _
  unfold Spec.proj Spec.hidden Spec.feat
  refine Finset.sum_congr rfl fun p _ => ?_
  rw [featC_hi m c p k hk, featAdj_eq, featX_eq, featW_eq]

/-! ## Before the second region: the adjacency copy untouched, `H` narrowed -/

theorem encLhs_eq (c : Dev nD) : RegionValues.encLhs (Run.V3 m) c = argAdj m c :=
  (StableHlo.after_of_writes_sub hostOps1 _ hostOps1_writes (by decide)).trans (adjCopy_eq m c)

/-- The narrowed `H` is `H`: on the extended reals a change of float format is the identity. -/
theorem encRhs_eq (c : Dev nD) : RegionValues.encRhs (Run.V3 m) c = hid m c := by
  show StableHlo.after hostOps1 (Run.W2 m c) (Proc.devRef .tc main_v2) = _
  after_results
  try rfl

/-! ## After the second region: `adj · H` -/

/-- The second region's output. -/
abbrev encBoth (c : Dev nD) : S10000x64.Idx → EReal := Run.W4 m c (Proc.devRef .tc main_v3)

/-- Its column `k` is the first encoding … -/
theorem encBoth_lo (c : Dev nD) (i : Fin 10000) (k : Fin 32) (hk : k.val < 64) :
    encBoth m c (ix2 i ⟨k.val, hk⟩) = Spec.enc (argX m c) (argAdj m c) (argW1 m c) (argW2 m c) i k := by
  refine ((congrFun (Run.W4_arr m c 2) _).trans
    (RegionValues.enc_final (Run.V3 m) k1_pay1_apply c i ⟨k.val, hk⟩)).trans ?_
  show (_ : EReal) = _
  unfold Spec.enc
  refine Finset.sum_congr rfl fun l _ => ?_
  rw [encLhs_eq, encRhs_eq, hid_lo m c l k hk]
/-- … and its column `32 + k` the second. -/
theorem encBoth_hi (c : Dev nD) (i : Fin 10000) (k : Fin 32) (hk : 32 + k.val < 64) :
    encBoth m c (ix2 i ⟨32 + k.val, hk⟩) = Spec.enc (argX m c) (argAdj m c) (argW1 m c) (argW3 m c) i k := by
  refine ((congrFun (Run.W4_arr m c 2) _).trans
    (RegionValues.enc_final (Run.V3 m) k1_pay1_apply c i ⟨32 + k.val, hk⟩)).trans ?_
  show (_ : EReal) = _
  unfold Spec.enc
  refine Finset.sum_congr rfl fun l _ => ?_
  rw [encLhs_eq, encRhs_eq, hid_hi m c l k hk]

/-! ## The two halves cut out -/

/-- The left half is the first encoding. -/
theorem mu_cut (c : Dev nD) :
    (Run.W5 m c (Proc.devRef .tc main_v4) : S10000x32.Idx → EReal) = Spec.encArr (argX m c) (argAdj m c) (argW1 m c) (argW2 m c) := by
  have e : (Run.W5 m c (Proc.devRef .tc main_v4) : S10000x32.Idx → EReal)
      = extractStridedSlice S10000x32 ![0, 0] (encBoth m c) slices_S10000x64_S10000x32_0_0 := by
    show StableHlo.after hostOps2 (Run.W4 m c) (Proc.devRef .tc main_v4) = _
    after_results
    try rfl
  rw [e]
  funext j
  obtain ⟨i, k, rfl⟩ : ∃ (i : Fin 10000) (k : Fin 32), j = ix2 i k := ⟨j 0, j 1, eq_ix2 j⟩
  have hk : k.val < 64 := by have := k.isLt; omega
  exact ((slice_lo (encBoth m c) _ i k hk).trans (encBoth_lo m c i k hk)).trans (Spec.encArr_ix2 _ _ _ _ i k).symm

/-- The right half is the second encoding. -/
theorem logvar_cut (c : Dev nD) :
    (Run.W5 m c (Proc.devRef .tc main_v5) : S10000x32.Idx → EReal) = Spec.encArr (argX m c) (argAdj m c) (argW1 m c) (argW3 m c) := by
  have e : (Run.W5 m c (Proc.devRef .tc main_v5) : S10000x32.Idx → EReal)
      = extractStridedSlice S10000x32 ![0, 32] (encBoth m c) slices_S10000x64_S10000x32_0_32 := by
    show StableHlo.after hostOps2 (Run.W4 m c) (Proc.devRef .tc main_v5) = _
    after_results
    try rfl
  rw [e]
  funext j
  obtain ⟨i, k, rfl⟩ : ∃ (i : Fin 10000) (k : Fin 32), j = ix2 i k := ⟨j 0, j 1, eq_ix2 j⟩
  have hk : 32 + k.val < 64 := by have := k.isLt; omega
  exact ((slice_hi (encBoth m c) _ i k hk).trans (encBoth_hi m c i k hk)).trans (Spec.encArr_ix2 _ _ _ _ i k).symm

/-! ## The three results -/

/-- The first encoding the kernel returns is the specification's at the first of the two second weights. -/
theorem kernel_mu (c : Dev nD) :
    Run.W6 m c (Proc.devRef .tc main_v4) = Spec.encArr (argX m c) (argAdj m c) (argW1 m c) (argW2 m c) :=
  (Run.W6_of_ne m c main_v4 (by decide)).trans (mu_cut m c)

/-- The second encoding the kernel returns is the specification's at the second. -/
theorem kernel_logvar (c : Dev nD) :
    Run.W6 m c (Proc.devRef .tc main_v5) = Spec.encArr (argX m c) (argAdj m c) (argW1 m c) (argW3 m c) :=
  (Run.W6_of_ne m c main_v5 (by decide)).trans (logvar_cut m c)

/-- The third region reads the first encoding. -/
theorem gramIn_eq (c : Dev nD) : RegionValues.gramIn (Run.V5 m) c = Spec.encArr (argX m c) (argAdj m c) (argW1 m c) (argW2 m c) :=
  mu_cut m c

/-- The matrix the kernel returns is the specification's Gram matrix of the first encoding. -/
theorem kernel_recon (c : Dev nD) :
    Run.W6 m c (Proc.devRef .tc main_v6) = Spec.gramArr (argX m c) (argAdj m c) (argW1 m c) (argW2 m c) := by
  refine (Run.W6_out m c).trans ?_
  funext j
  obtain ⟨a, b, rfl⟩ : ∃ (a b : Fin 10000), j = ix2 a b := ⟨j 0, j 1, eq_ix2 j⟩
  refine (RegionValues.gram_final (Run.V5 m) k2_pay1_apply c a b).trans ?_
  show (_ : EReal) = _
  rw [Spec.gramArr_ix2]
  unfold Spec.gram
  refine Finset.sum_congr rfl fun k _ => ?_
  rw [gramIn_eq, Spec.encArr_ix2, Spec.encArr_ix2]

end Cert.KernelIdeal.KernelValue

end
-- ==== Proof.RefValue.lean ====
import proofs.«181382_g32409823216073_cont_9to1_1175_25_alg».proof.Proof.Gen.ReferenceIdeal.Read
import proofs.«181382_g32409823216073_cont_9to1_1175_25_alg».proof.Proof.Spec
import Idealize.ShloMosaic.PureOps.Ideal.Laws
import Idealize.ShloMosaic.Lib.ValueIdx
import Idealize.ShloMosaic.Lib.Pipeline.Value

/-
  The reference program computes the specification.

  The reference is five matrix products, one maximum against zero and one transposition. Over the extended reals
  each product is the plain sum over its one contracted axis, so each stage, read at row `a` and column `b`, is the
  corresponding function of `Cert.Spec`: `x · w1` is `feat`, its product with `adj` under the maximum with zero is
  `hidden`, the product with a weight matrix is `proj`, the product with `adj` again is `enc`, and the product of
  `enc` with its own transpose is `gram`. The proofs go stage by stage: each reads the stage at an index built from
  its two coordinates, replaces the index functions of the contraction by that same construction, and uses the
  previous stage under the sum.
-/

noncomputable section

namespace Cert.RefValue

open Cert.ReferenceIdeal Cert.ReferenceIdeal.Gen Cert.ReferenceIdeal.Read
open Idealize.ShloMosaic Idealize.ShloMosaic.ValueIdx Idealize.ShloMosaic.StableHlo

/-! ## The contraction's index functions at an index given by coordinates

In a product `A · B` read at `(a, b)` the left factor is read at `(a, r)` and the right at `(r, b)`. -/

theorem lidx_v0 (a : Fin 10000) (b : Fin 32) (r : Fin 128) : lidx_main_v0 (ix2 a b) r = ix2 a r :=
  funext fun d => Fin.ext (by match d with | ⟨0, _⟩ => rfl | ⟨1, _⟩ => rfl)
theorem ridx_v0 (a : Fin 10000) (b : Fin 32) (r : Fin 128) : ridx_main_v0 (ix2 a b) r = ix2 r b :=
  funext fun d => Fin.ext (by match d with | ⟨0, _⟩ => rfl | ⟨1, _⟩ => rfl)
theorem lidx_v1 (a : Fin 10000) (b : Fin 32) (r : Fin 10000) : lidx_main_v1 (ix2 a b) r = ix2 a r :=
  funext fun d => Fin.ext (by match d with | ⟨0, _⟩ => rfl | ⟨1, _⟩ => rfl)
theorem ridx_v1 (a : Fin 10000) (b : Fin 32) (r : Fin 10000) : ridx_main_v1 (ix2 a b) r = ix2 r b :=
  funext fun d => Fin.ext (by match d with | ⟨0, _⟩ => rfl | ⟨1, _⟩ => rfl)
theorem lidx_v3 (a : Fin 10000) (b : Fin 32) (r : Fin 32) : lidx_main_v3 (ix2 a b) r = ix2 a r :=
  funext fun d => Fin.ext (by match d with | ⟨0, _⟩ => rfl | ⟨1, _⟩ => rfl)
theorem ridx_v3 (a : Fin 10000) (b : Fin 32) (r : Fin 32) : ridx_main_v3 (ix2 a b) r = ix2 r b :=
  funext fun d => Fin.ext (by match d with | ⟨0, _⟩ => rfl | ⟨1, _⟩ => rfl)
theorem lidx_v4 (a : Fin 10000) (b : Fin 32) (r : Fin 10000) : lidx_main_v4 (ix2 a b) r = ix2 a r :=
  funext fun d => Fin.ext (by match d with | ⟨0, _⟩ => rfl | ⟨1, _⟩ => rfl)
theorem ridx_v4 (a : Fin 10000) (b : Fin 32) (r : Fin 10000) : ridx_main_v4 (ix2 a b) r = ix2 r b :=
  funext fun d => Fin.ext (by match d with | ⟨0, _⟩ => rfl | ⟨1, _⟩ => rfl)

/-! ## The stages at an index -/

variable (x : (⟨S10000x128, .f32⟩ : BufTy).Contents (Elt Ideal))
  (adj : (⟨S10000x10000, .f32⟩ : BufTy).Contents (Elt Ideal))
  (w1 : (⟨S128x32, .f32⟩ : BufTy).Contents (Elt Ideal))
  (w2 w3 : (⟨S32x32, .f32⟩ : BufTy).Contents (Elt Ideal))

/-- `x · w1` at `(q, p)`. -/
theorem feat_at (q : Fin 10000) (p : Fin 32) :
    val_main_v0 (F := Ideal) x w1 (ix2 q p) = Spec.feat x w1 q p := by
  rw [val_main_v0_apply]
  unfold Spec.feat
  refine Finset.sum_congr rfl fun r _ => ?_
  rw [lidx_v0, ridx_v0]

/-- `max (adj · (x · w1)) 0` at `(l, p)`: the constant the maximum is taken against is the zero word. -/
theorem hidden_at (l : Fin 10000) (p : Fin 32) :
    val_main_v2 (F := Ideal) x adj w1 (ix2 l p) = Spec.hidden x adj w1 l p := by
  rw [val_main_v2_apply, val_main_v1_apply, val_main_call0_v0_apply, val_main_call0_cst_apply,
    Ideal.maximumf_def, Ideal.ofBits_def, Ideal.ofBits_zero_f32]
  unfold Spec.hidden
  refine congrArg (fun s => max s (0 : EReal)) (Finset.sum_congr rfl fun q _ => ?_)
  rw [lidx_v1, ridx_v1, feat_at]

/-- `hidden · w2` at `(l, k)`. -/
theorem proj2_at (l : Fin 10000) (k : Fin 32) :
    val_main_v3 (F := Ideal) x adj w1 w2 (ix2 l k) = Spec.proj x adj w1 w2 l k := by
  rw [val_main_v3_apply]
  unfold Spec.proj
  refine Finset.sum_congr rfl fun p _ => ?_
  rw [lidx_v3, ridx_v3, hidden_at]

/-- `adj · (hidden · w2)` at `(i, k)`. -/
theorem enc2_at (i : Fin 10000) (k : Fin 32) :
    val_main_v4 (F := Ideal) x adj w1 w2 (ix2 i k) = Spec.enc x adj w1 w2 i k := by
  rw [val_main_v4_apply]
  unfold Spec.enc
  refine Finset.sum_congr rfl fun l _ => ?_
  rw [lidx_v4, ridx_v4, proj2_at]

/-! ## The second weight matrix's twin stages, the transposition and the last product -/

theorem lidx_v5 (a : Fin 10000) (b : Fin 32) (r : Fin 32) : lidx_main_v5 (ix2 a b) r = ix2 a r :=
  funext fun d => Fin.ext (by match d with | ⟨0, _⟩ => rfl | ⟨1, _⟩ => rfl)
theorem ridx_v5 (a : Fin 10000) (b : Fin 32) (r : Fin 32) : ridx_main_v5 (ix2 a b) r = ix2 r b :=
  funext fun d => Fin.ext (by match d with | ⟨0, _⟩ => rfl | ⟨1, _⟩ => rfl)
theorem lidx_v6 (a : Fin 10000) (b : Fin 32) (r : Fin 10000) : lidx_main_v6 (ix2 a b) r = ix2 a r :=
  funext fun d => Fin.ext (by match d with | ⟨0, _⟩ => rfl | ⟨1, _⟩ => rfl)
theorem ridx_v6 (a : Fin 10000) (b : Fin 32) (r : Fin 10000) : ridx_main_v6 (ix2 a b) r = ix2 r b :=
  funext fun d => Fin.ext (by match d with | ⟨0, _⟩ => rfl | ⟨1, _⟩ => rfl)
/-- The transpose at `(k, j)` reads its operand at `(j, k)`. -/
theorem idx_v7 (k : Fin 32) (j : Fin 10000) : idx_main_v7 (ix2 k j) = ix2 j k :=
  funext fun d => Fin.ext (by match d with | ⟨0, _⟩ => rfl | ⟨1, _⟩ => rfl)
theorem lidx_v8 (a b : Fin 10000) (r : Fin 32) : lidx_main_v8 (ix2 a b) r = ix2 a r :=
  funext fun d => Fin.ext (by match d with | ⟨0, _⟩ => rfl | ⟨1, _⟩ => rfl)
theorem ridx_v8 (a b : Fin 10000) (r : Fin 32) : ridx_main_v8 (ix2 a b) r = ix2 r b :=
  funext fun d => Fin.ext (by match d with | ⟨0, _⟩ => rfl | ⟨1, _⟩ => rfl)

/-- `hidden · w3` at `(l, k)`. -/
theorem proj3_at (l : Fin 10000) (k : Fin 32) :
    val_main_v5 (F := Ideal) x adj w1 w3 (ix2 l k) = Spec.proj x adj w1 w3 l k := by
  rw [val_main_v5_apply]
  unfold Spec.proj
  refine Finset.sum_congr rfl fun p _ => ?_
  rw [lidx_v5, ridx_v5, hidden_at]

/-- `adj · (hidden · w3)` at `(i, k)`. -/
theorem enc3_at (i : Fin 10000) (k : Fin 32) :
    val_main_v6 (F := Ideal) x adj w1 w3 (ix2 i k) = Spec.enc x adj w1 w3 i k := by
  rw [val_main_v6_apply]
  unfold Spec.enc
  refine Finset.sum_congr rfl fun l _ => ?_
  rw [lidx_v6, ridx_v6, proj3_at]

/-- `enc · encᵀ` at `(i, j)`: the right factor, a transpose read at `(k, j)`, is `enc` at `(j, k)`. -/
theorem gram_at (i j : Fin 10000) :
    val_main_v8 (F := Ideal) x adj w1 w2 (ix2 i j) = Spec.gram x adj w1 w2 i j := by
  rw [val_main_v8_apply]
  unfold Spec.gram
  refine Finset.sum_congr rfl fun k _ => ?_
  rw [lidx_v8, ridx_v8, val_main_v7_apply, idx_v7, enc2_at, enc2_at]

/-! ## The three results as arrays -/

/-- The Gram matrix the reference returns is the specification's. -/
theorem recon_eq :
    Host.dotGeneral (F := Ideal) (φ₁ := .f32) (φ₂ := .f32) dot_S10000x32_S32x10000_S10000x10000_1_0_0_1_n_n none (Host.dotGeneral (F := Ideal) (φ₁ := .f32) (φ₂ := .f32) dot_S10000x10000_S10000x32_S10000x32_1_0_0_1_n_n none adj (Host.dotGeneral (F := Ideal) (φ₁ := .f32) (φ₂ := .f32) dot_S10000x32_S32x32_S10000x32_1_0_0_1_n_n none (maximumf (Host.dotGeneral (F := Ideal) (φ₁ := .f32) (φ₂ := .f32) dot_S10000x10000_S10000x32_S10000x32_1_0_0_1_n_n none adj (Host.dotGeneral (F := Ideal) (φ₁ := .f32) (φ₂ := .f32) dot_S10000x128_S128x32_S10000x32_1_0_0_1_n_n none x w1)) (broadcastInDim S10000x32 ![] bcast_S_S10000x32 (constant (F := Ideal) S_ .f32 0x00000000#32))) w2)) (transpose S32x10000 [1, 0] (Host.dotGeneral (F := Ideal) (φ₁ := .f32) (φ₂ := .f32) dot_S10000x10000_S10000x32_S10000x32_1_0_0_1_n_n none adj (Host.dotGeneral (F := Ideal) (φ₁ := .f32) (φ₂ := .f32) dot_S10000x32_S32x32_S10000x32_1_0_0_1_n_n none (maximumf (Host.dotGeneral (F := Ideal) (φ₁ := .f32) (φ₂ := .f32) dot_S10000x10000_S10000x32_S10000x32_1_0_0_1_n_n none adj (Host.dotGeneral (F := Ideal) (φ₁ := .f32) (φ₂ := .f32) dot_S10000x128_S128x32_S10000x32_1_0_0_1_n_n none x w1)) (broadcastInDim S10000x32 ![] bcast_S_S10000x32 (constant (F := Ideal) S_ .f32 0x00000000#32))) w2)) transposes_S10000x32_S32x10000_1_0)
      = Spec.gramArr x adj w1 w2 := by
  rw [val_main_v8_eq]
  funext j
  obtain ⟨a, b, rfl⟩ : ∃ (a : Fin 10000) (b : Fin 10000), j = ix2 a b := ⟨j 0, j 1, eq_ix2 j⟩
  exact (gram_at x adj w1 w2 a b).trans (Spec.gramArr_ix2 x adj w1 w2 a b).symm

/-- The first encoding the reference returns is the specification's at `w2`. -/
theorem mu_eq :
    Host.dotGeneral (F := Ideal) (φ₁ := .f32) (φ₂ := .f32) dot_S10000x10000_S10000x32_S10000x32_1_0_0_1_n_n none adj (Host.dotGeneral (F := Ideal) (φ₁ := .f32) (φ₂ := .f32) dot_S10000x32_S32x32_S10000x32_1_0_0_1_n_n none (maximumf (Host.dotGeneral (F := Ideal) (φ₁ := .f32) (φ₂ := .f32) dot_S10000x10000_S10000x32_S10000x32_1_0_0_1_n_n none adj (Host.dotGeneral (F := Ideal) (φ₁ := .f32) (φ₂ := .f32) dot_S10000x128_S128x32_S10000x32_1_0_0_1_n_n none x w1)) (broadcastInDim S10000x32 ![] bcast_S_S10000x32 (constant (F := Ideal) S_ .f32 0x00000000#32))) w2)
      = Spec.encArr x adj w1 w2 := by
  rw [val_main_v4_eq]
  funext j
  obtain ⟨a, b, rfl⟩ : ∃ (a : Fin 10000) (b : Fin 32), j = ix2 a b := ⟨j 0, j 1, eq_ix2 j⟩
  exact (enc2_at x adj w1 w2 a b).trans (Spec.encArr_ix2 x adj w1 w2 a b).symm

/-- The second encoding the reference returns is the specification's at `w3`. -/
theorem logvar_eq :
    Host.dotGeneral (F := Ideal) (φ₁ := .f32) (φ₂ := .f32) dot_S10000x10000_S10000x32_S10000x32_1_0_0_1_n_n none adj (Host.dotGeneral (F := Ideal) (φ₁ := .f32) (φ₂ := .f32) dot_S10000x32_S32x32_S10000x32_1_0_0_1_n_n none (maximumf (Host.dotGeneral (F := Ideal) (φ₁ := .f32) (φ₂ := .f32) dot_S10000x10000_S10000x32_S10000x32_1_0_0_1_n_n none adj (Host.dotGeneral (F := Ideal) (φ₁ := .f32) (φ₂ := .f32) dot_S10000x128_S128x32_S10000x32_1_0_0_1_n_n none x w1)) (broadcastInDim S10000x32 ![] bcast_S_S10000x32 (constant (F := Ideal) S_ .f32 0x00000000#32))) w3)
      = Spec.encArr x adj w1 w3 := by
  rw [val_main_v6_eq]
  funext j
  obtain ⟨a, b, rfl⟩ : ∃ (a : Fin 10000) (b : Fin 32), j = ix2 a b := ⟨j 0, j 1, eq_ix2 j⟩
  exact (enc3_at x adj w1 w3 a b).trans (Spec.encArr_ix2 x adj w1 w3 a b).symm

/-! ## The run of the reference ends at the specification -/

open Idealize.ShloMosaic.TcCoe Idealize.SL.Sem

/-- On every device, from any memory with zero counters, every weakly fair execution of the reference terminates with
    its three results at the specification's arrays of the arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Spec.gramArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Spec.encArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Spec.encArr (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans (recon_eq _ _ _ _), (h c).2.1.trans (mu_eq _ _ _ _), (h c).2.2.1.trans (logvar_eq _ _ _ _), (h c).2.2.2⟩)
    (Cert.ReferenceIdeal.Value.run (F := Ideal) m ρ)

end Cert.RefValue

end
-- ==== Proof.lean ====
/-
  A graph auto-encoder's forward pass, as three Pallas regions against four plain matrix products.

  Both programs compute, from features x, a dense adjacency adj and weights W1, W2, W3,
      hidden = max (adj · (x · W1)) 0,   mu = adj · (hidden · W2),   logvar = adj · (hidden · W3),   recon = mu · muᵀ.
  The kernel computes x · W1 once, at the first grid point of its first region, into a scratch that every later
  point reads; that region multiplies each 400-row panel of adj by the scratch, clamps at zero and multiplies by
  W2 and W3 set side by side, and also writes the panel back narrowed. The second region multiplies 1000-row
  panels of that copy by the [10000, 64] result; mu and logvar are its left and right 32 columns; the third region
  multiplies 400-row panels of mu by muᵀ. Over the extended reals a change of float format is the identity and
  every product is the plain sum over the contracted axis, so entry by entry both programs form the SAME sums in
  the same grouping: a column of hidden · [W2 | W3] is the column of hidden · W2 or of hidden · W3. No law that
  would need finite entries (distributivity, cancellation) is used, and the precondition is never opened.

  The three frames: the word-level kernel and the idealized kernel by the run of @main as six segments (three host
  stretches, three regions), stated once for any float instance; the reference by its run. The idealization
  rewrote nothing, so `preserves` is trivial. `algebraic`: both runs end with the three results at the one
  specification (Spec.lean) of the argument arrays.
-/
import proofs.«181382_g32409823216073_cont_9to1_1175_25_alg».proof.Defs
import proofs.«181382_g32409823216073_cont_9to1_1175_25_alg».proof.Proof.Gen.Kernel
import proofs.«181382_g32409823216073_cont_9to1_1175_25_alg».proof.Proof.Gen.KernelIdeal
import proofs.«181382_g32409823216073_cont_9to1_1175_25_alg».proof.Proof.Gen.ReferenceIdeal
import proofs.«181382_g32409823216073_cont_9to1_1175_25_alg».proof.Proof.Gen.Pre_finite_inputs
import proofs.«181382_g32409823216073_cont_9to1_1175_25_alg».proof.Proof.RunAll
import proofs.«181382_g32409823216073_cont_9to1_1175_25_alg».proof.Proof.FeatRegion
import proofs.«181382_g32409823216073_cont_9to1_1175_25_alg».proof.Proof.KRunAll
import proofs.«181382_g32409823216073_cont_9to1_1175_25_alg».proof.Proof.KFeatRegion
import proofs.«181382_g32409823216073_cont_9to1_1175_25_alg».proof.Proof.KernelValue
import proofs.«181382_g32409823216073_cont_9to1_1175_25_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its five argument arrays as launched: its run names every
    unscoped buffer at the end, and no host stretch or region writes an argument. -/
theorem frame_k : Cert.frame_Kernel := fun m ρ _ =>
  (θ_run (Cert.Kernel.defs (F := Bits)) _ _).mono
    (fun r h c => ⟨(h c _ (Cert.Kernel.Run.mem_uc Cert.Kernel.main_arg0 (by decide))).trans (Cert.Kernel.Run.W6_main_arg0 m c),
      (h c _ (Cert.Kernel.Run.mem_uc Cert.Kernel.main_arg1 (by decide))).trans (Cert.Kernel.Run.W6_main_arg1 m c),
      (h c _ (Cert.Kernel.Run.mem_uc Cert.Kernel.main_arg2 (by decide))).trans (Cert.Kernel.Run.W6_main_arg2 m c),
      (h c _ (Cert.Kernel.Run.mem_uc Cert.Kernel.main_arg3 (by decide))).trans (Cert.Kernel.Run.W6_main_arg3 m c),
      (h c _ (Cert.Kernel.Run.mem_uc Cert.Kernel.main_arg4 (by decide))).trans (Cert.Kernel.Run.W6_main_arg4 m c)⟩)
    (Cert.Kernel.Run.run (F := Bits) m ρ Cert.Kernel.FeatRegion.body_obligation)

/-- The idealized kernel likewise: the same run read at the extended reals. -/
theorem frame_ki : Cert.frame_KernelIdeal := fun m ρ _ =>
  (θ_run (Cert.KernelIdeal.defs (F := Ideal)) _ _).mono
    (fun r h c => ⟨(h c _ (Cert.KernelIdeal.Run.mem_uc Cert.KernelIdeal.main_arg0 (by decide))).trans (Cert.KernelIdeal.Run.W6_main_arg0 m c),
      (h c _ (Cert.KernelIdeal.Run.mem_uc Cert.KernelIdeal.main_arg1 (by decide))).trans (Cert.KernelIdeal.Run.W6_main_arg1 m c),
      (h c _ (Cert.KernelIdeal.Run.mem_uc Cert.KernelIdeal.main_arg2 (by decide))).trans (Cert.KernelIdeal.Run.W6_main_arg2 m c),
      (h c _ (Cert.KernelIdeal.Run.mem_uc Cert.KernelIdeal.main_arg3 (by decide))).trans (Cert.KernelIdeal.Run.W6_main_arg3 m c),
      (h c _ (Cert.KernelIdeal.Run.mem_uc Cert.KernelIdeal.main_arg4 (by decide))).trans (Cert.KernelIdeal.Run.W6_main_arg4 m c)⟩)
    (Cert.KernelIdeal.Run.run (F := Ideal) m ρ Cert.KernelIdeal.FeatRegion.body_obligation)

/-- The reference is host operations only: its run, with the results dropped. -/
theorem frame_ri : Cert.frame_ReferenceIdeal := fun m ρ _ =>
  (θ_run (Cert.ReferenceIdeal.defs (F := Ideal)) _ _).mono (fun _ h c => (h c).2.2.2) (Cert.RefValue.run_spec m ρ)

/-- The idealization rewrote no operation. -/
theorem preserves : Cert.preserves_Kernel_KernelIdeal := trivial

/-- From memories agreeing on the arguments both programs end with the Gram matrix, the mean encoding and the
    log-variance encoding of the specification, computed from the same argument arrays. -/
theorem algebraic : Cert.algebraic_KernelIdeal_ReferenceIdeal := by
  intro m ρ m' ρ' _ hagree
  refine ⟨fun c => Cert.KernelIdeal.Run.V6 m c Cert.KernelIdeal.main_v6, fun c => Cert.KernelIdeal.Run.V6 m c Cert.KernelIdeal.main_v4,
    fun c => Cert.KernelIdeal.Run.V6 m c Cert.KernelIdeal.main_v5, ?_, ?_⟩
  · exact (θ_run (Cert.KernelIdeal.defs (F := Ideal)) _ _).mono
      (fun r h c => ⟨h c _ (Cert.KernelIdeal.Run.mem_uc Cert.KernelIdeal.main_v6 (by decide)),
        h c _ (Cert.KernelIdeal.Run.mem_uc Cert.KernelIdeal.main_v4 (by decide)),
        h c _ (Cert.KernelIdeal.Run.mem_uc Cert.KernelIdeal.main_v5 (by decide)),
        (h c _ (Cert.KernelIdeal.Run.mem_uc Cert.KernelIdeal.main_arg0 (by decide))).trans (Cert.KernelIdeal.Run.W6_main_arg0 m c),
      (h c _ (Cert.KernelIdeal.Run.mem_uc Cert.KernelIdeal.main_arg1 (by decide))).trans (Cert.KernelIdeal.Run.W6_main_arg1 m c),
      (h c _ (Cert.KernelIdeal.Run.mem_uc Cert.KernelIdeal.main_arg2 (by decide))).trans (Cert.KernelIdeal.Run.W6_main_arg2 m c),
      (h c _ (Cert.KernelIdeal.Run.mem_uc Cert.KernelIdeal.main_arg3 (by decide))).trans (Cert.KernelIdeal.Run.W6_main_arg3 m c),
      (h c _ (Cert.KernelIdeal.Run.mem_uc Cert.KernelIdeal.main_arg4 (by decide))).trans (Cert.KernelIdeal.Run.W6_main_arg4 m c)⟩)
      (Cert.KernelIdeal.Run.run (F := Ideal) m ρ Cert.KernelIdeal.FeatRegion.body_obligation)
  · refine (θ_run (Cert.ReferenceIdeal.defs (F := Ideal)) _ _).mono
      (fun r h c => ⟨(h c).1.trans ?_, (h c).2.1.trans ?_, (h c).2.2.1.trans ?_, (h c).2.2.2⟩) (Cert.RefValue.run_spec m' ρ')
    · rw [(hagree c).1, (hagree c).2.1, (hagree c).2.2.1, (hagree c).2.2.2.1]
      exact (Cert.KernelIdeal.KernelValue.kernel_recon m c).symm
    · rw [(hagree c).1, (hagree c).2.1, (hagree c).2.2.1, (hagree c).2.2.2.1]
      exact (Cert.KernelIdeal.KernelValue.kernel_mu m c).symm
    · rw [(hagree c).1, (hagree c).2.1, (hagree c).2.2.1, (hagree c).2.2.2.2]
      exact (Cert.KernelIdeal.KernelValue.kernel_logvar m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
